-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v38)) (v1 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38) = v0 c
          ∧ r.2.mem ((c.tc : Thread Cert.KernelIdeal.nD Cert.KernelIdeal.τ).loc Cert.KernelIdeal.main_v19) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_v25) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S1600000x64 : Shape := ⟨2, ![1600000, 64]⟩
abbrev S1600000 : Shape := ⟨1, ![1600000]⟩
abbrev S64x64 : Shape := ⟨2, ![64, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S1600000x64 : S_.BroadcastsInDim S1600000x64 (![] : Fin 0 → Fin S1600000x64.rank)
  reducesTo_S1600000x64_S_d0_1 : S1600000x64.ReducesTo [0, 1] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg9 : FVec F S64 .f32) (main_v33 : IVec S_ 1) : IVec S_ 1 :=
  let main_v34 : FVec F S64 .f32 := Host.absf main_arg9
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  main_v38

def fn_part1 {F : FTy → Type} [FloatOps F] (main_arg6 : FVec F S64x64 .f32) (main_arg7 : FVec F S64x64 .f32) (main_arg8 : FVec F S64x64 .f32) (main_arg9 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg6
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64x64 .f32 := Host.absf main_arg7
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64x64 .f32 := Host.absf main_arg8
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg9 main_v33

def fn {F : FTy → Type} [FloatOps F] (main_arg0 : FVec F S100000x64 .f32) (main_arg1 : FVec F S1600000x64 .f32) (main_arg2 : IVec S1600000 32) (main_arg3 : IVec S1600000 32) (main_arg4 : FVec F S64x64 .f32) (main_arg5 : FVec F S64 .f32) (main_arg6 : FVec F S64x64 .f32) (main_arg7 : FVec F S64x64 .f32) (main_arg8 : FVec F S64x64 .f32) (main_arg9 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S1600000x64 .f32 := Host.absf main_arg1
  let main_cst_0 : FVec F S_ .f32 := constant S_ .f32 0x7F800000#32
  let main_v5 : FVec F S1600000x64 .f32 := broadcastInDim S1600000x64 ![] bcast_S_S1600000x64 main_cst_0
  let main_v6 : IVec S1600000x64 1 := cmpf .olt main_v4 main_v5
  let main_c_1 : IVec S_ 1 := constantI S_ 1 1#1
  let main_v7 : IVec S_ 1 := (fun x v => Host.reduce IntOp.andi x v reducesTo_S1600000x64_S_d0_1 h_S_) main_v6 main_c_1
  let main_v8 : IVec S_ 1 := andi main_v3 main_v7
  let main_v9 : FVec F S64x64 .f32 := Host.absf main_arg4
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg6 main_arg7 main_arg8 main_arg9 main_v13 main_v16
-- ==== Kernel.lean ====
abbrev S100000x64 : Shape := ⟨2, ![100000, 64]⟩
abbrev S1600000x64 : Shape := ⟨2, ![1600000, 64]⟩
abbrev S1600000 : Shape := ⟨1, ![1600000]⟩
abbrev S64x64 : Shape := ⟨2, ![64, 64]⟩
abbrev S64 : Shape := ⟨1, ![64]⟩
abbrev S2000x64 : Shape := ⟨2, ![2000, 64]⟩
abbrev S1x64 : Shape := ⟨2, ![1, 64]⟩
abbrev S_ : Shape := ⟨0, ![]⟩
abbrev S1600000x1 : Shape := ⟨2, ![1600000, 1]⟩
abbrev S8000x64 : Shape := ⟨2, ![8000, 64]⟩
abbrev S100000 : Shape := ⟨1, ![100000]⟩
abbrev S100000x1 : Shape := ⟨2, ![100000, 1]⟩

abbrev nBuf : Space → Nat
  | .hbm => 61
  | .vmem => 22
  | .smem => 0
  | _ => 0

abbrev bufTy : (tb : Table) → Fin (tcTables nBuf tb) → BufTy
  | .hbm, ⟨0, _⟩ => ⟨S100000x64, .f32⟩
  | .hbm, ⟨1, _⟩ => ⟨S1600000x64, .f32⟩
  | .hbm, ⟨2, _⟩ => ⟨S1600000, .i32⟩
  | .hbm, ⟨3, _⟩ => ⟨S1600000, .i32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64x64, .f32⟩
  | .hbm, ⟨8, _⟩ => ⟨S64x64, .f32⟩
  | .hbm, ⟨9, _⟩ => ⟨S64, .f32⟩
  | .hbm, ⟨10, _⟩ => ⟨S64x64, .f32⟩
  | .hbm, ⟨11, _⟩ => ⟨S64x64, .f32⟩
  | .hbm, ⟨12, _⟩ => ⟨S64x64, .f32⟩
  | .hbm, ⟨13, _⟩ => ⟨S64x64, .f32⟩
  | .hbm, ⟨14, _⟩ => ⟨S100000x64, .f32⟩
  | .hbm, ⟨15, _⟩ => ⟨S100000x64, .f32⟩
  | .hbm, ⟨16, _⟩ => ⟨S100000x64, .f32⟩
  | .hbm, ⟨17, _⟩ => ⟨S_, .i32⟩
  | .hbm, ⟨18, _⟩ => ⟨S1600000, .i32⟩
  | .hbm, ⟨19, _⟩ => ⟨S1600000, .i1⟩
  | .hbm, ⟨20, _⟩ => ⟨S_, .i32⟩
  | .hbm, ⟨21, _⟩ => ⟨S1600000, .i32⟩
  | .hbm, ⟨22, _⟩ => ⟨S1600000, .i32⟩
  | .hbm, ⟨23, _⟩ => ⟨S1600000, .i32⟩
  | .hbm, ⟨24, _⟩ => ⟨S1600000x1, .i32⟩
  | .hbm, ⟨25, _⟩ => ⟨S1600000x64, .f32⟩
  | .hbm, ⟨26, _⟩ => ⟨S_, .i32⟩
  | .hbm, ⟨27, _⟩ => ⟨S1600000, .i32⟩
  | .hbm, ⟨28, _⟩ => ⟨S1600000, .i1⟩
  | .hbm, ⟨29, _⟩ => ⟨S_, .i32⟩
  | .hbm, ⟨30, _⟩ => ⟨S1600000, .i32⟩
  | .hbm, ⟨31, _⟩ => ⟨S1600000, .i32⟩
  | .hbm, ⟨32, _⟩ => ⟨S1600000, .i32⟩
  | .hbm, ⟨33, _⟩ => ⟨S1600000x1, .i32⟩
  | .hbm, ⟨34, _⟩ => ⟨S1600000x64, .f32⟩
  | .hbm, ⟨35, _⟩ => ⟨S1600000x64, .f32⟩
  | .hbm, ⟨36, _⟩ => ⟨S_, .i32⟩
  | .hbm, ⟨37, _⟩ => ⟨S1600000, .i32⟩
  | .hbm, ⟨38, _⟩ => ⟨S1600000, .i1⟩
  | .hbm, ⟨39, _⟩ => ⟨S_, .i32⟩
  | .hbm, ⟨40, _⟩ => ⟨S1600000, .i32⟩
  | .hbm, ⟨41, _⟩ => ⟨S1600000, .i32⟩
  | .hbm, ⟨42, _⟩ => ⟨S1600000, .i32⟩
  | .hbm, ⟨43, _⟩ => ⟨S1600000x1, .i32⟩
  | .hbm, ⟨44, _⟩ => ⟨S1600000x64, .f32⟩
  | .hbm, ⟨45, _⟩ => ⟨S_, .f32⟩
  | .hbm, ⟨46, _⟩ => ⟨S100000x64, .f32⟩
  | .hbm, ⟨47, _⟩ => ⟨S1600000x1, .i32⟩
  | .hbm, ⟨48, _⟩ => ⟨S100000x64, .f32⟩
  | .hbm, ⟨49, _⟩ => ⟨S_, .f32⟩
  | .hbm, ⟨50, _⟩ => ⟨S1600000, .f32⟩
  | .hbm, ⟨51, _⟩ => ⟨S_, .f32⟩
  | .hbm, ⟨52, _⟩ => ⟨S100000, .f32⟩
  | .hbm, ⟨53, _⟩ => ⟨S1600000x1, .i32⟩
  | .hbm, ⟨54, _⟩ => ⟨S100000, .f32⟩
  | .hbm, ⟨55, _⟩ => ⟨S_, .f32⟩
  | .hbm, ⟨56, _⟩ => ⟨S100000, .f32⟩
  | .hbm, ⟨57, _⟩ => ⟨S100000, .f32⟩
  | .hbm, ⟨58, _⟩ => ⟨S100000x1, .f32⟩
  | .hbm, ⟨59, _⟩ => ⟨S100000x64, .f32⟩
  | .hbm, ⟨60, _⟩ => ⟨S100000x64, .f32⟩
  | .local _ .vmem, ⟨0, _⟩ => ⟨S2000x64, .f32⟩
  | .local _ .vmem, ⟨1, _⟩ => ⟨S2000x64, .f32⟩
  | .local _ .vmem, ⟨2, _⟩ => ⟨S64x64, .f32⟩
  | .local _ .vmem, ⟨3, _⟩ => ⟨S64x64, .f32⟩
  | .local _ .vmem, ⟨4, _⟩ => ⟨S64x64, .f32⟩
  | .local _ .vmem, ⟨5, _⟩ => ⟨S64, .f32⟩
  | .local _ .vmem, ⟨6, _⟩ => ⟨S2000x64, .f32⟩
  | .local _ .vmem, ⟨7, _⟩ => ⟨S2000x64, .f32⟩
  | .local _ .vmem, ⟨8, _⟩ => ⟨S2000x64, .f32⟩
  | .local _ .vmem, ⟨9, _⟩ => ⟨S2000x64, .f32⟩
  | .local _ .vmem, ⟨10, _⟩ => ⟨S2000x64, .f32⟩
  | .local _ .vmem, ⟨11, _⟩ => ⟨S2000x64, .f32⟩
  | .local _ .vmem, ⟨12, _⟩ => ⟨S8000x64, .f32⟩
  | .local _ .vmem, ⟨13, _⟩ => ⟨S8000x64, .f32⟩
  | .local _ .vmem, ⟨14, _⟩ => ⟨S64x64, .f32⟩
  | .local _ .vmem, ⟨15, _⟩ => ⟨S64, .f32⟩
  | .local _ .vmem, ⟨16, _⟩ => ⟨S8000x64, .f32⟩
  | .local _ .vmem, ⟨17, _⟩ => ⟨S8000x64, .f32⟩
  | .local _ .vmem, ⟨18, _⟩ => ⟨S8000x64, .f32⟩
  | .local _ .vmem, ⟨19, _⟩ => ⟨S8000x64, .f32⟩
  | .local _ .vmem, ⟨20, _⟩ => ⟨S8000x64, .f32⟩
  | .local _ .vmem, ⟨21, _⟩ => ⟨S8000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4_0 : Ref sig .tc := ⟨.hbm, 14, rfl⟩
abbrev main_v4_1 : Ref sig .tc := ⟨.hbm, 15, rfl⟩
abbrev main_v4_2 : Ref sig .tc := ⟨.hbm, 16, rfl⟩
abbrev main_c : Ref sig .tc := ⟨.hbm, 17, rfl⟩
abbrev main_v5 : Ref sig .tc := ⟨.hbm, 18, rfl⟩
abbrev main_v6 : Ref sig .tc := ⟨.hbm, 19, rfl⟩
abbrev main_c_0 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_c_1 : Ref sig .tc := ⟨.hbm, 26, rfl⟩
abbrev main_v12 : Ref sig .tc := ⟨.hbm, 27, rfl⟩
abbrev main_v13 : Ref sig .tc := ⟨.hbm, 28, rfl⟩
abbrev main_c_2 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_c_3 : Ref sig .tc := ⟨.hbm, 36, rfl⟩
abbrev main_v20 : Ref sig .tc := ⟨.hbm, 37, rfl⟩
abbrev main_v21 : Ref sig .tc := ⟨.hbm, 38, rfl⟩
abbrev main_c_4 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_cst : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_cst_5 : Ref sig .tc := ⟨.hbm, 49, rfl⟩
abbrev main_v30 : Ref sig .tc := ⟨.hbm, 50, rfl⟩
abbrev main_cst_6 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_cst_7 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc1_stg5_0 : Ref sig .tc := ⟨.vmem, 20, rfl⟩
abbrev cc1_stg5_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc1_sem0_0 : DmaSem sig := 12
abbrev cc1_sem0_1 : DmaSem sig := 13
abbrev cc1_sem1_0 : DmaSem sig := 14
abbrev cc1_sem2_0 : DmaSem sig := 15
abbrev cc1_sem3_0 : DmaSem sig := 16
abbrev cc1_sem3_1 : DmaSem sig := 17
abbrev cc1_sem4_0 : DmaSem sig := 18
abbrev cc1_sem4_1 : DmaSem sig := 19
abbrev cc1_sem5_0 : DmaSem sig := 20
abbrev cc1_sem5_1 : DmaSem sig := 21

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2000x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2000x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![200], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S8000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S8000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S8000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  transposes_S64x64_S64x64_1_0 : S64x64.Transposes [1, 0] S64x64
  inb_S2000x64_S2000x64_0_0 : ∀ a, (![0, 0] : Fin 2 → Nat) a + S2000x64.size a ≤ S2000x64.size a
  h_S2000x64 : 0 < S2000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S64_S64_0 : ∀ a, (![0] : Fin 1 → Nat) a + S64.size a ≤ S64.size a
  h_S64 : 0 < S64.numel
  shapeCasts_S64_S1x64 : S64.ShapeCasts S1x64
  broadcasts_S1x64_S2000x64 : S1x64.Broadcasts S2000x64
  bcast_S_S1600000 : S_.BroadcastsInDim S1600000 (![] : Fin 0 → Fin S1600000.rank)
  bcast_S1600000_S1600000x1_0 : S1600000.BroadcastsInDim S1600000x1 (![0] : Fin 1 → Fin S1600000x1.rank)
  inb_S8000x64_S8000x64_0_0 : ∀ a, (![0, 0] : Fin 2 → Nat) a + S8000x64.size a ≤ S8000x64.size a
  h_S8000x64 : 0 < S8000x64.numel
  shapeCasts_S8000x64_S8000x64 : S8000x64.ShapeCasts S8000x64
  broadcasts_S1x64_S8000x64 : S1x64.Broadcasts S8000x64
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  dot_S2000x64_S64x64_S2000x64_1_0_0_1_n_n_wf : DotDims.WF S2000x64 S64x64 S2000x64 [1] [0] [0] [1] [] []
  gather_S100000x64_S1600000x1_S1600000x64_1_0_n_n_0_1_164_wf : GatherDims.WF S100000x64 S1600000x1 S1600000x64 [1] [0] [] [0] [] 1 ![1, 64]
  dot_S8000x64_S64x64_S8000x64_1_0_0_1_n_n_wf : DotDims.WF S8000x64 S64x64 S8000x64 [1] [0] [0] [1] [] []
  scatter_S100000x64_S1600000x1_S1600000x64_1_0_0_1_wf : ScatterDims.WF S100000x64 S1600000x1 S1600000x64 [1] [0] [0] 1
  scatter_S100000_S1600000x1_S1600000_n_0_0_1_wf : ScatterDims.WF S100000 S1600000x1 S1600000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x64.size a ≤ S100000x64.size a
  hwx0_0 : ∀ i : grid0.Coords, EltTy.bits .f32 = 32 ∨ (Rect.block (s := S100000x64) S2000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64.size a ≤ S64.size a
  hwx0_4 : ∀ i : grid0.Coords, EltTy.bits .f32 = 32 ∨ (Rect.block (s := S64) S64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x64.size a ≤ S100000x64.size a
  hwx0_5 : ∀ i : grid0.Coords, EltTy.bits .f32 = 32 ∨ (Rect.block (s := S100000x64) S2000x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x64.size a ≤ S100000x64.size a
  hwx0_6 : ∀ i : grid0.Coords, EltTy.bits .f32 = 32 ∨ (Rect.block (s := S100000x64) S2000x64.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2000x64.size a ≤ S100000x64.size a
  hwx0_7 : ∀ i : grid0.Coords, EltTy.bits .f32 = 32 ∨ (Rect.block (s := S100000x64) S2000x64.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8000x64.size a ≤ S1600000x64.size a
  hwx1_0 : ∀ i : grid1.Coords, EltTy.bits .f32 = 32 ∨ (Rect.block (s := S1600000x64) S8000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .f32 = 32 ∨ (Rect.block (s := S64x64) S64x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64.size a ≤ S64.size a
  hwx1_2 : ∀ i : grid1.Coords, EltTy.bits .f32 = 32 ∨ (Rect.block (s := S64) S64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S8000x64.size a ≤ S1600000x64.size a
  hwx1_3 : ∀ i : grid1.Coords, EltTy.bits .f32 = 32 ∨ (Rect.block (s := S1600000x64) S8000x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S8000x64.size a ≤ S1600000x64.size a
  hwx1_4 : ∀ i : grid1.Coords, EltTy.bits .f32 = 32 ∨ (Rect.block (s := S1600000x64) S8000x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S8000x64.size a ≤ S1600000x64.size a
  hwx1_5 : ∀ i : grid1.Coords, EltTy.bits .f32 = 32 ∨ (Rect.block (s := S1600000x64) S8000x64.size (cc1_transform_5 i) (hinb1_5 i)).WholeWords (EltTy.packing .f32)

variable [Facts₀]

def dot_S2000x64_S64x64_S2000x64_1_0_0_1_n_n : DotDims S2000x64 S64x64 S2000x64 where
  lhsContracting := [1]
  rhsContracting := [0]
  lhsNonContracting := [0]
  rhsNonContracting := [1]
  lhsBatch := []
  rhsBatch := []
  wf := dot_S2000x64_S64x64_S2000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def dot_S8000x64_S64x64_S8000x64_1_0_0_1_n_n : DotDims S8000x64 S64x64 S8000x64 where
  lhsContracting := [1]
  rhsContracting := [0]
  lhsNonContracting := [0]
  rhsNonContracting := [1]
  lhsBatch := []
  rhsBatch := []
  wf := dot_S8000x64_S64x64_S8000x64_1_0_0_1_n_n_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf

abbrev win0_0 : Pipeline.Window sig grid0 :=
  Pipeline.Window.ofSpec (Memref.whole main_arg0) S2000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4_0) S2000x64.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v4_1) S2000x64.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v4_2) S2000x64.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_arg1) S8000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg9) S64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v11) S8000x64.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v18) S8000x64.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v19) S8000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x64 : Shape := ⟨2, ![100000, 64]⟩
abbrev S1600000x64 : Shape := ⟨2, ![1600000, 64]⟩
abbrev S1600000 : Shape := ⟨1, ![1600000]⟩
abbrev S64x64 : Shape := ⟨2, ![64, 64]⟩
abbrev S64 : Shape := ⟨1, ![64]⟩
abbrev S_ : Shape := ⟨0, ![]⟩
abbrev S1600000x1 : Shape := ⟨2, ![1600000, 1]⟩
abbrev S1x64 : Shape := ⟨2, ![1, 64]⟩
abbrev S100000 : Shape := ⟨1, ![100000]⟩
abbrev S100000x1 : Shape := ⟨2, ![100000, 1]⟩

abbrev nBuf : Space → Nat
  | .hbm => 77
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S1600000x64, .f32⟩
  | .hbm, ⟨2, _⟩ => ⟨S1600000, .i32⟩
  | .hbm, ⟨3, _⟩ => ⟨S1600000, .i32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64x64, .f32⟩
  | .hbm, ⟨8, _⟩ => ⟨S64x64, .f32⟩
  | .hbm, ⟨9, _⟩ => ⟨S64, .f32⟩
  | .hbm, ⟨10, _⟩ => ⟨S64x64, .f32⟩
  | .hbm, ⟨11, _⟩ => ⟨S100000x64, .f32⟩
  | .hbm, ⟨12, _⟩ => ⟨S64x64, .f32⟩
  | .hbm, ⟨13, _⟩ => ⟨S100000x64, .f32⟩
  | .hbm, ⟨14, _⟩ => ⟨S64x64, .f32⟩
  | .hbm, ⟨15, _⟩ => ⟨S1600000x64, .f32⟩
  | .hbm, ⟨16, _⟩ => ⟨S_, .i32⟩
  | .hbm, ⟨17, _⟩ => ⟨S1600000, .i32⟩
  | .hbm, ⟨18, _⟩ => ⟨S1600000, .i1⟩
  | .hbm, ⟨19, _⟩ => ⟨S_, .i32⟩
  | .hbm, ⟨20, _⟩ => ⟨S1600000, .i32⟩
  | .hbm, ⟨21, _⟩ => ⟨S1600000, .i32⟩
  | .hbm, ⟨22, _⟩ => ⟨S1600000, .i32⟩
  | .hbm, ⟨23, _⟩ => ⟨S1600000x1, .i32⟩
  | .hbm, ⟨24, _⟩ => ⟨S1600000x64, .f32⟩
  | .hbm, ⟨25, _⟩ => ⟨S_, .i32⟩
  | .hbm, ⟨26, _⟩ => ⟨S1600000, .i32⟩
  | .hbm, ⟨27, _⟩ => ⟨S1600000, .i1⟩
  | .hbm, ⟨28, _⟩ => ⟨S_, .i32⟩
  | .hbm, ⟨29, _⟩ => ⟨S1600000, .i32⟩
  | .hbm, ⟨30, _⟩ => ⟨S1600000, .i32⟩
  | .hbm, ⟨31, _⟩ => ⟨S1600000, .i32⟩
  | .hbm, ⟨32, _⟩ => ⟨S1600000x1, .i32⟩
  | .hbm, ⟨33, _⟩ => ⟨S1600000x64, .f32⟩
  | .hbm, ⟨34, _⟩ => ⟨S1600000x64, .f32⟩
  | .hbm, ⟨35, _⟩ => ⟨S1600000x64, .f32⟩
  | .hbm, ⟨36, _⟩ => ⟨S1x64, .f32⟩
  | .hbm, ⟨37, _⟩ => ⟨S1600000x64, .f32⟩
  | .hbm, ⟨38, _⟩ => ⟨S1600000x64, .f32⟩
  | .hbm, ⟨39, _⟩ => ⟨S_, .f32⟩
  | .hbm, ⟨40, _⟩ => ⟨S_, .f32⟩
  | .hbm, ⟨41, _⟩ => ⟨S1600000x64, .f32⟩
  | .hbm, ⟨42, _⟩ => ⟨S1600000x64, .i1⟩
  | .hbm, ⟨43, _⟩ => ⟨S_, .f32⟩
  | .hbm, ⟨44, _⟩ => ⟨S1600000x64, .f32⟩
  | .hbm, ⟨45, _⟩ => ⟨S1600000x64, .f32⟩
  | .hbm, ⟨46, _⟩ => ⟨S1600000x64, .f32⟩
  | .hbm, ⟨47, _⟩ => ⟨S64x64, .f32⟩
  | .hbm, ⟨48, _⟩ => ⟨S100000x64, .f32⟩
  | .hbm, ⟨49, _⟩ => ⟨S1x64, .f32⟩
  | .hbm, ⟨50, _⟩ => ⟨S100000x64, .f32⟩
  | .hbm, ⟨51, _⟩ => ⟨S100000x64, .f32⟩
  | .hbm, ⟨52, _⟩ => ⟨S_, .i32⟩
  | .hbm, ⟨53, _⟩ => ⟨S1600000, .i32⟩
  | .hbm, ⟨54, _⟩ => ⟨S1600000, .i1⟩
  | .hbm, ⟨55, _⟩ => ⟨S_, .i32⟩
  | .hbm, ⟨56, _⟩ => ⟨S1600000, .i32⟩
  | .hbm, ⟨57, _⟩ => ⟨S1600000, .i32⟩
  | .hbm, ⟨58, _⟩ => ⟨S1600000, .i32⟩
  | .hbm, ⟨59, _⟩ => ⟨S1600000x1, .i32⟩
  | .hbm, ⟨60, _⟩ => ⟨S1600000x64, .f32⟩
  | .hbm, ⟨61, _⟩ => ⟨S_, .f32⟩
  | .hbm, ⟨62, _⟩ => ⟨S100000x64, .f32⟩
  | .hbm, ⟨63, _⟩ => ⟨S1600000x1, .i32⟩
  | .hbm, ⟨64, _⟩ => ⟨S100000x64, .f32⟩
  | .hbm, ⟨65, _⟩ => ⟨S_, .f32⟩
  | .hbm, ⟨66, _⟩ => ⟨S1600000, .f32⟩
  | .hbm, ⟨67, _⟩ => ⟨S_, .f32⟩
  | .hbm, ⟨68, _⟩ => ⟨S100000, .f32⟩
  | .hbm, ⟨69, _⟩ => ⟨S1600000x1, .i32⟩
  | .hbm, ⟨70, _⟩ => ⟨S100000, .f32⟩
  | .hbm, ⟨71, _⟩ => ⟨S_, .f32⟩
  | .hbm, ⟨72, _⟩ => ⟨S100000, .f32⟩
  | .hbm, ⟨73, _⟩ => ⟨S100000, .f32⟩
  | .hbm, ⟨74, _⟩ => ⟨S100000x1, .f32⟩
  | .hbm, ⟨75, _⟩ => ⟨S100000x64, .f32⟩
  | .hbm, ⟨76, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_c : Ref sig .tc := ⟨.hbm, 16, rfl⟩
abbrev main_v6 : Ref sig .tc := ⟨.hbm, 17, rfl⟩
abbrev main_v7 : Ref sig .tc := ⟨.hbm, 18, rfl⟩
abbrev main_c_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_c_1 : Ref sig .tc := ⟨.hbm, 25, rfl⟩
abbrev main_v13 : Ref sig .tc := ⟨.hbm, 26, rfl⟩
abbrev main_v14 : Ref sig .tc := ⟨.hbm, 27, rfl⟩
abbrev main_c_2 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst : Ref sig .tc := ⟨.hbm, 39, rfl⟩
abbrev main_call0_cst : Ref sig .tc := ⟨.hbm, 40, rfl⟩
abbrev main_call0_v0 : Ref sig .tc := ⟨.hbm, 41, rfl⟩
abbrev main_call0_v1 : Ref sig .tc := ⟨.hbm, 42, rfl⟩
abbrev main_call0_v2 : Ref sig .tc := ⟨.hbm, 43, rfl⟩
abbrev main_call0_v3 : Ref sig .tc := ⟨.hbm, 44, rfl⟩
abbrev main_call0_v4 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_c_3 : Ref sig .tc := ⟨.hbm, 52, rfl⟩
abbrev main_v31 : Ref sig .tc := ⟨.hbm, 53, rfl⟩
abbrev main_v32 : Ref sig .tc := ⟨.hbm, 54, rfl⟩
abbrev main_c_4 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_cst_5 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_cst_6 : Ref sig .tc := ⟨.hbm, 65, rfl⟩
abbrev main_v41 : Ref sig .tc := ⟨.hbm, 66, rfl⟩
abbrev main_cst_7 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_cst_8 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩

abbrev nD : Nat := 1
abbrev τ : Topo := Topo.v7x

variable {F : FTy → Type} [FloatOps F]

class Facts₀ : Prop where
  transposes_S64x64_S64x64_1_0 : S64x64.Transposes [1, 0] S64x64
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S64_S1x64_1 : S64.BroadcastsInDim S1x64 (![1] : Fin 1 → Fin S1x64.rank)
  bcast_S1x64_S1600000x64_0_1 : S1x64.BroadcastsInDim S1600000x64 (![0, 1] : Fin 2 → Fin S1600000x64.rank)
  bcast_S_S1600000x64 : S_.BroadcastsInDim S1600000x64 (![] : Fin 0 → Fin S1600000x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  dot_S100000x64_S64x64_S100000x64_1_0_0_1_n_n_wf : DotDims.WF S100000x64 S64x64 S100000x64 [1] [0] [0] [1] [] []
  dot_S1600000x64_S64x64_S1600000x64_1_0_0_1_n_n_wf : DotDims.WF S1600000x64 S64x64 S1600000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S100000_S1600000x1_S1600000_n_0_0_1_wf : ScatterDims.WF S100000 S1600000x1 S1600000 [] [0] [0] 1

variable [Facts₀]

def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S1600000x64_S64x64_S1600000x64_1_0_0_1_n_n : DotDims S1600000x64 S64x64 S1600000x64 where
  lhsContracting := [1]
  rhsContracting := [0]
  lhsNonContracting := [0]
  rhsNonContracting := [1]
  lhsBatch := []
  rhsBatch := []
  wf := dot_S1600000x64_S64x64_S1600000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf

class Facts : Prop extends Facts₀ where

variable [Facts]
-- ==== Proof.LibPlainDot.lean ====
/-
  A plain matrix product read at an index.

  For the dimension numbers of an `M x K` by `K x N` product (contract the left operand's columns with the right
  operand's rows, no batch axis) the contraction index is one coordinate `k < K`, the left operand is read at
  `(row, k)` and the right at `(k, column)`. So at the ideal instance both the matrix unit's product into a zero
  accumulator and the host's `dot_general` are, at output index `(r, c)`, the sum over `k` of `l (r, k) * r (k, c)`.
-/
import Idealize.ShloMosaic.PureOps.Ideal.Laws
import Idealize.ShloMosaic.Lib.ValueIdx

noncomputable section

namespace Cert.Lib.PlainDot

open Idealize.ShloMosaic Idealize.ShloMosaic.ValueIdx

variable (M K N : ℕ)

theorem lhs0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

theorem rhs1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- The contraction sum of a plain product, over the contracted coordinate. -/
theorem sum_plain {α : Type*} [AddCommMonoid α] (f : (⟨2, ![M, K]⟩ : Shape).Idx → (⟨2, ![K, N]⟩ : Shape).Idx → α)
    (i : (⟨2, ![M, N]⟩ : Shape).Idx) :
    ∑ q : (DotDims.plain M K N).contr.Idx, f ((DotDims.plain M K N).lhsIdx i q) ((DotDims.plain M K N).rhsIdx i q)
      = ∑ k : Fin K, f (ix2 (i 0) k) (ix2 k (i 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx i ((contrEquiv1 (DotDims.plain M K N) K rfl rfl).symm k) = ix2 (i 0) k :=
    funext fun a => Fin.ext (by
      match a with
      | ⟨0, _⟩ => exact lhs0 M K N _ _
      | ⟨1, _⟩ => exact ((DotDims.plain M K N).lhsIdx_val_of_single (cl := 1) rfl i _).trans hk)
  have er : (DotDims.plain M K N).rhsIdx i ((contrEquiv1 (DotDims.plain M K N) K rfl rfl).symm k) = ix2 k (i 1) :=
    funext fun a => Fin.ext (by
      match a with
      | ⟨0, _⟩ => exact ((DotDims.plain M K N).rhsIdx_val_of_single (cr := 0) rfl i _).trans hk
      | ⟨1, _⟩ => exact rhs1 M K N _ _)
  rw [el, er]
  rfl

/-- The matrix unit's product into a zero accumulator, at an index. -/
theorem matmul_zero_apply {φ₁ φ₂ : FTy} (prec : Option ContractPrecision)
    (l : FVec Ideal ⟨2, ![M, K]⟩ φ₁) (r : FVec Ideal ⟨2, ![K, N]⟩ φ₂) (i : (⟨2, ![M, N]⟩ : Shape).Idx) :
    FloatOps.matmul (DotDims.plain M K N) prec l r (constant ⟨2, ![M, N]⟩ .f32 0x00000000#32) i
      = ∑ k : Fin K, l (ix2 (i 0) k) * r (ix2 k (i 1)) := by
  rw [Ideal.matmul_constant_zero_apply]
  exact sum_plain M K N (fun a b => l a * r b) i

/-- The host's `dot_general`, at an index. -/
theorem dotGeneral_apply {φ₁ φ₂ : FTy} (prec : Option ContractPrecision) (sched : HostSchedule)
    (l : FVec Ideal ⟨2, ![M, K]⟩ φ₁) (r : FVec Ideal ⟨2, ![K, N]⟩ φ₂) (i : (⟨2, ![M, N]⟩ : Shape).Idx) :
    FloatOps.dotGeneral (DotDims.plain M K N) prec sched l r i
      = ∑ k : Fin K, l (ix2 (i 0) k) * r (ix2 k (i 1)) := by
  rw [Ideal.dotGeneral_apply]
  exact sum_plain M K N (fun a b => l a * r b) i

end Cert.Lib.PlainDot

end
-- ==== Proof.LibRowLayers.lean ====
/-
  Row-wise network layers read as whole arrays, at the ideal values.

  A network applied to each row of a matrix is built from a few layers. Each is stated here once, as a function of whole
  arrays over arbitrary extents:

    sumLead     the sum over the leading axis of a [c, n, d] array:  (p, j) ↦ ∑ k, x (k, p, j)
    dense       an affine map of each row, the weight stored [out, in]:  (p, j) ↦ (∑ d, X (p, d) * W (j, d)) + b j
    relu        the maximum with the value of the zero word, entry by entry
    scale       the product with the value of a float word, entry by entry
    sideBySide  an [n, a] and an [n, b] array joined along the columns

  Two spellings of each layer are proved equal to it. On the vector unit an affine map is a product with the transposed
  weight into a zero accumulator plus the bias cast to a [1, N] row and broadcast down the rows; on the host it is a
  dot_general with the transposed weight plus the bias broadcast in two steps. A sum over the leading axis is a
  multi_reduction from the neutral accumulator; a relu is a maximum with a zero splat. None of these equalities moves a
  factor across a sum, so they hold for every extended real, infinite entries included.

  Every layer computes row p of its result from row p of its array operands alone (the weights and biases are shared by
  all rows). So each layer commutes with taking a family of rows, 'rows e' below: a network of such layers applied to a
  block of rows is the same block of rows of the network applied to the whole matrix.
-/
import Idealize.ShloMosaic.PureOps.Ideal.Laws
import Idealize.ShloMosaic.Lib.ValueIdx
import Idealize.ShloMosaic.Lib.ValueLayout
import Idealize.ShloMosaic.Lib.Pipeline.Value
import proofs.«133075_j53755810676780_1_alg».proof.Proof.LibPlainDot

noncomputable section

namespace Cert.Lib.RowLayers

open Idealize.ShloMosaic Idealize.ShloMosaic.ValueIdx

/-! ## The layers -/

/-- The sum over the leading axis of a [c, n, d] array. -/
def sumLead (c n d : ℕ) (x : (⟨3, ![c, n, d]⟩ : Shape).Idx → EReal) : (⟨2, ![n, d]⟩ : Shape).Idx → EReal :=
  fun i => ∑ k : Fin c, x (ix3 k (i 0) (i 1))

/-- An affine map of each row: the weight is stored [out, in], so entry (p, j) pairs row p of X with row j of W. -/
def dense (n K N : ℕ) (X : (⟨2, ![n, K]⟩ : Shape).Idx → EReal) (W : (⟨2, ![N, K]⟩ : Shape).Idx → EReal)
    (b : (⟨1, ![N]⟩ : Shape).Idx → EReal) : (⟨2, ![n, N]⟩ : Shape).Idx → EReal :=
  fun i => (∑ d : Fin K, X (ix2 (i 0) d) * W (ix2 (i 1) d)) + b (ix1 (i 1))

/-- The maximum with the value of the zero word, entry by entry. -/
def relu (s : Shape) (X : s.Idx → EReal) : s.Idx → EReal :=
  fun i => max (X i) (Ideal.ofBits .f32 0x00000000#32)

/-- The product with the value of the float word w, entry by entry (the word on the left). -/
def scale (s : Shape) (w : BitVec 32) (b : s.Idx → EReal) : s.Idx → EReal :=
  fun i => Ideal.ofBits .f32 w * b i

/-- An [n, a] array and an [n, b] array joined along the columns: column q < a is the first array's, column q ≥ a the
    second array's column q - a. -/
def sideBySide (n a b c : ℕ) (hc : c = a + b) (X : (⟨2, ![n, a]⟩ : Shape).Idx → EReal)
    (Y : (⟨2, ![n, b]⟩ : Shape).Idx → EReal) : (⟨2, ![n, c]⟩ : Shape).Idx → EReal :=
  fun i => if h : (i 1).val < a then X (ix2 (i 0) ⟨(i 1).val, h⟩)
    else Y (ix2 (i 0) ⟨(i 1).val - a, by have := idx2_lt1 i; omega⟩)

/-! ## A change of float format is the identity at the ideal values -/

theorem truncf_id {s : Shape} {φ ψ : FTy} (X : FVec Ideal s φ) (h : ψ.bits < φ.bits) :
    (truncf ψ X h : FVec Ideal s ψ) = X := rfl

/-! ## A plain product at a pair of coordinates -/

theorem matmul_zero_ix2 (M K N : ℕ) {φ₁ φ₂ : FTy} (prec : Option ContractPrecision)
    (l : FVec Ideal ⟨2, ![M, K]⟩ φ₁) (r : FVec Ideal ⟨2, ![K, N]⟩ φ₂) (p : Fin M) (q : Fin N) :
    FloatOps.matmul (DotDims.plain M K N) prec l r (constant ⟨2, ![M, N]⟩ .f32 0x00000000#32) (ix2 p q)
      = ∑ k : Fin K, l (ix2 p k) * r (ix2 k q) :=
  Cert.Lib.PlainDot.matmul_zero_apply M K N prec l r (ix2 p q)

theorem dotGeneral_ix2 (M K N : ℕ) {φ₁ φ₂ : FTy} (prec : Option ContractPrecision) (sched : HostSchedule)
    (l : FVec Ideal ⟨2, ![M, K]⟩ φ₁) (r : FVec Ideal ⟨2, ![K, N]⟩ φ₂) (p : Fin M) (q : Fin N) :
    FloatOps.dotGeneral (DotDims.plain M K N) prec sched l r (ix2 p q) = ∑ k : Fin K, l (ix2 p k) * r (ix2 k q) :=
  Cert.Lib.PlainDot.dotGeneral_apply M K N prec sched l r (ix2 p q)

/-! ## The vector unit's spellings -/

/-- A multi_reduction by addition over the leading axis, from the neutral accumulator, is the sum over that axis. -/
theorem kernel_sumLead (c n d : ℕ) (x : FVec Ideal ⟨3, ![c, n, d]⟩ .f32)
    (h : (⟨3, ![c, n, d]⟩ : Shape).Reduces [0] ⟨2, ![n, d]⟩)
    (hacc : (0x00000000#32 : BitVec 32) = 0x00000000#32) :
    multiReduction .add [0] ⟨2, ![n, d]⟩ x 0x00000000#32 h (.inl rfl) hacc = sumLead c n d x := by
  funext i
  obtain ⟨p, q, rfl⟩ : ∃ (p : Fin n) (q : Fin d), i = ix2 p q := ⟨i 0, i 1, eq_ix2 i⟩
  refine (Ideal.multiReduction_add_single x 0x00000000#32 h (.inl rfl) hacc (ix2 p q)).trans ?_
  refine Finset.sum_congr rfl fun k _ => congrArg x (funext fun a => Fin.ext ?_)
  match a with
  | ⟨0, _⟩ => rfl
  | ⟨1, _⟩ => rfl
  | ⟨2, _⟩ => rfl

/-- The product with the transposed weight into a zero accumulator, plus the bias as a [1, N] row broadcast down the
    rows, is the affine map. -/
theorem kernel_dense (n K N : ℕ) {φ₁ φ₂ : FTy} (X : FVec Ideal ⟨2, ![n, K]⟩ φ₁) (W : FVec Ideal ⟨2, ![N, K]⟩ φ₂)
    (b : FVec Ideal ⟨1, ![N]⟩ .f32)
    (hT : (⟨2, ![N, K]⟩ : Shape).Transposes [1, 0] ⟨2, ![K, N]⟩)
    (hS : (⟨1, ![N]⟩ : Shape).ShapeCasts ⟨2, ![1, N]⟩) (hB : (⟨2, ![1, N]⟩ : Shape).Broadcasts ⟨2, ![n, N]⟩) :
    addf (matmul (DotDims.plain n K N) none X (transpose ⟨2, ![K, N]⟩ [1, 0] W hT) (constant ⟨2, ![n, N]⟩ .f32 0x00000000#32))
        (broadcastTo ⟨2, ![n, N]⟩ (shapeCast ⟨2, ![1, N]⟩ b hS) hB)
      = dense n K N X W b := by
  funext i
  obtain ⟨p, q, rfl⟩ : ∃ (p : Fin n) (q : Fin N), i = ix2 p q := ⟨i 0, i 1, eq_ix2 i⟩
  show FloatOps.matmul (DotDims.plain n K N) none X (transpose ⟨2, ![K, N]⟩ [1, 0] W hT) (constant ⟨2, ![n, N]⟩ .f32 0x00000000#32) (ix2 p q)
      + broadcastTo ⟨2, ![n, N]⟩ (shapeCast ⟨2, ![1, N]⟩ b hS) hB (ix2 p q)
    = (∑ d : Fin K, X (ix2 p d) * W (ix2 q d)) + b (ix1 q)
  rw [matmul_zero_ix2, broadcastTo_1b_ab_apply, shapeCast_a_1a_apply]
  refine congrArg (· + b (ix1 q)) (Finset.sum_congr rfl fun k _ => ?_)
  rw [transpose_ix2_apply]

/-- A maximum with the zero word splat is the relu. -/
theorem kernel_relu (s : Shape) (X : FVec Ideal s .f32) :
    maximumf X (broadcast s (Scalar.ofBits .f32 0x00000000#32)) = relu s X := rfl

/-- A product with a splat word on the left is the scaling. -/
theorem kernel_scale (s : Shape) (w : BitVec 32) (b : FVec Ideal s .f32) :
    mulf (broadcast s (Scalar.ofBits (F := Ideal) .f32 w)) b = scale s w b := rfl

/-- A concatenation of two arrays along axis 1 (either program spells it this way) is the join along the columns. -/
theorem concat_cols (n a b c : ℕ) (hc : c = a + b) (X : (⟨2, ![n, a]⟩ : Shape).Idx → EReal)
    (Y : (⟨2, ![n, b]⟩ : Shape).Idx → EReal)
    (h : Shape.Concatenates [(⟨2, ![n, a]⟩ : Shape), ⟨2, ![n, b]⟩] ⟨2, ![n, c]⟩ 1) :
    concatenate ⟨2, ![n, c]⟩ 1 [⟨⟨2, ![n, a]⟩, X⟩, ⟨⟨2, ![n, b]⟩, Y⟩] h = sideBySide n a b c hc X Y := by
  funext i
  obtain ⟨p, q, rfl⟩ : ∃ (p : Fin n) (q : Fin c), i = ix2 p q := ⟨i 0, i 1, eq_ix2 i⟩
  unfold sideBySide
  split
  · next hq =>
    exact concatenate_pair_apply_left 1 X Y h (ix2 p q) rfl (ix2 p ⟨q.val, hq⟩)
      (fun e => match e with | ⟨0, _⟩ => rfl | ⟨1, _⟩ => rfl)
  · next hq =>
    have hq' : a ≤ q.val := Nat.le_of_not_lt hq
    refine concatenate_pair_apply_right 1 X Y h (ix2 p q) rfl rfl (ix2 p ⟨q.val - a, by have := q.isLt; omega⟩)
      (fun e he => match e, he with
        | ⟨0, _⟩, _ => rfl
        | ⟨1, _⟩, he => absurd rfl he) ?_
    show (q.val - a) + a = q.val
    omega

/-! ## The host's spellings -/

/-- A scalar constant broadcast to a shape reads the word's value at every index. -/
theorem host_splat (t : Shape) (w : BitVec 32) (h : (⟨0, ![]⟩ : Shape).BroadcastsInDim t ![]) (i : t.Idx) :
    broadcastInDim t ![] h (constant (F := Ideal) ⟨0, ![]⟩ .f32 w) i = Ideal.ofBits .f32 w :=
  (broadcastInDim_apply _ h (constant (F := Ideal) ⟨0, ![]⟩ .f32 w) i ix0 (fun a => a.elim0)).trans rfl

/-- A maximum with the broadcast zero constant is the relu. -/
theorem host_relu (t : Shape) (X : FVec Ideal t .f32) (h : (⟨0, ![]⟩ : Shape).BroadcastsInDim t ![]) :
    maximumf X (broadcastInDim t ![] h (constant (F := Ideal) ⟨0, ![]⟩ .f32 0x00000000#32)) = relu t X :=
  funext fun i => congrArg (max (X i)) (host_splat t _ h i)

/-- A product with a broadcast constant on the left is the scaling. -/
theorem host_scale (t : Shape) (w : BitVec 32) (b : FVec Ideal t .f32) (h : (⟨0, ![]⟩ : Shape).BroadcastsInDim t ![]) :
    mulf (broadcastInDim t ![] h (constant (F := Ideal) ⟨0, ![]⟩ .f32 w)) b = scale t w b :=
  funext fun i => congrArg (· * b i) (host_splat t w h i)

/-- A bias broadcast first to a [1, N] row and then down the rows reads the bias at the column. -/
theorem host_bias (n N : ℕ) (b : (⟨1, ![N]⟩ : Shape).Idx → EReal)
    (h1 : (⟨1, ![N]⟩ : Shape).BroadcastsInDim ⟨2, ![1, N]⟩ ![1])
    (h2 : (⟨2, ![1, N]⟩ : Shape).BroadcastsInDim ⟨2, ![n, N]⟩ ![0, 1]) (p : Fin n) (q : Fin N) :
    broadcastInDim ⟨2, ![n, N]⟩ ![0, 1] h2 (broadcastInDim ⟨2, ![1, N]⟩ ![1] h1 b) (ix2 p q) = b (ix1 q) := by
  refine (broadcastInDim_apply _ h2 _ (ix2 p q) (ix2 (0 : Fin 1) q) (fun a => ?_)).trans ?_
  · match a with
    | ⟨0, _⟩ => show 0 = if (1 : ℕ) = 1 then 0 else p.val; rw [if_pos rfl]
    | ⟨1, _⟩ =>
      show q.val = if N = 1 then 0 else q.val
      split
      · have := q.isLt; omega
      · rfl
  · refine broadcastInDim_apply _ h1 b (ix2 (0 : Fin 1) q) (ix1 q) (fun a => ?_)
    match a with
    | ⟨0, _⟩ =>
      show q.val = if N = 1 then 0 else q.val
      split
      · have := q.isLt; omega
      · rfl

/-- A dot_general with the transposed weight plus the bias broadcast in two steps is the affine map. -/
theorem host_dense (n K N : ℕ) (X : FVec Ideal ⟨2, ![n, K]⟩ .f32) (W : FVec Ideal ⟨2, ![N, K]⟩ .f32)
    (b : FVec Ideal ⟨1, ![N]⟩ .f32)
    (hT : (⟨2, ![N, K]⟩ : Shape).Transposes [1, 0] ⟨2, ![K, N]⟩)
    (h1 : (⟨1, ![N]⟩ : Shape).BroadcastsInDim ⟨2, ![1, N]⟩ ![1])
    (h2 : (⟨2, ![1, N]⟩ : Shape).BroadcastsInDim ⟨2, ![n, N]⟩ ![0, 1]) :
    addf (Host.dotGeneral (DotDims.plain n K N) none X (transpose ⟨2, ![K, N]⟩ [1, 0] W hT))
        (broadcastInDim ⟨2, ![n, N]⟩ ![0, 1] h2 (broadcastInDim ⟨2, ![1, N]⟩ ![1] h1 b))
      = dense n K N X W b := by
  funext i
  obtain ⟨p, q, rfl⟩ : ∃ (p : Fin n) (q : Fin N), i = ix2 p q := ⟨i 0, i 1, eq_ix2 i⟩
  show FloatOps.dotGeneral (DotDims.plain n K N) none .single X (transpose ⟨2, ![K, N]⟩ [1, 0] W hT) (ix2 p q)
      + broadcastInDim ⟨2, ![n, N]⟩ ![0, 1] h2 (broadcastInDim ⟨2, ![1, N]⟩ ![1] h1 b) (ix2 p q)
    = (∑ d : Fin K, X (ix2 p d) * W (ix2 q d)) + b (ix1 q)
  rw [dotGeneral_ix2, host_bias]
  refine congrArg (· + b (ix1 q)) (Finset.sum_congr rfl fun k _ => ?_)
  rw [transpose_ix2_apply]

/-! ## Taking a family of rows -/

/-- The rows e 0, e 1, … of a matrix, as a matrix. -/
def rows (n' n d : ℕ) (e : Fin n' → Fin n) (X : (⟨2, ![n, d]⟩ : Shape).Idx → EReal) : (⟨2, ![n', d]⟩ : Shape).Idx → EReal :=
  fun y => X (ix2 (e (y 0)) (y 1))

/-- The same rows of each slice of a [c, n, d] array. -/
def rows3 (c n' n d : ℕ) (e : Fin n' → Fin n) (X : (⟨3, ![c, n, d]⟩ : Shape).Idx → EReal) :
    (⟨3, ![c, n', d]⟩ : Shape).Idx → EReal :=
  fun y => X (ix3 (y 0) (e (y 1)) (y 2))

variable (n' n : ℕ) (e : Fin n' → Fin n)

theorem sumLead_rows (c d : ℕ) (x : (⟨3, ![c, n, d]⟩ : Shape).Idx → EReal) :
    sumLead c n' d (rows3 c n' n d e x) = rows n' n d e (sumLead c n d x) := rfl

theorem dense_rows (K N : ℕ) (X : (⟨2, ![n, K]⟩ : Shape).Idx → EReal) (W : (⟨2, ![N, K]⟩ : Shape).Idx → EReal)
    (b : (⟨1, ![N]⟩ : Shape).Idx → EReal) :
    dense n' K N (rows n' n K e X) W b = rows n' n N e (dense n K N X W b) := rfl

theorem relu_rows (d : ℕ) (X : (⟨2, ![n, d]⟩ : Shape).Idx → EReal) :
    relu ⟨2, ![n', d]⟩ (rows n' n d e X) = rows n' n d e (relu ⟨2, ![n, d]⟩ X) := rfl

theorem sideBySide_rows (a b c : ℕ) (hc : c = a + b) (X : (⟨2, ![n, a]⟩ : Shape).Idx → EReal)
    (Y : (⟨2, ![n, b]⟩ : Shape).Idx → EReal) :
    sideBySide n' a b c hc (rows n' n a e X) (rows n' n b e Y) = rows n' n c e (sideBySide n a b c hc X Y) := rfl

end Cert.Lib.RowLayers

end
-- ==== Proof.EdgeNet.lean ====
/-
  The layers of one message-passing step on a graph, as whole arrays over an arbitrary number of rows and at the
  ideal values (extended reals, every operation exact):

    proj    a product of each row with a weight stored [in, out]:   (p, j) ↦ ∑ k, X (p, k) * W (k, j)
    affine  the same plus a bias:                                   (p, j) ↦ (∑ k, X (p, k) * W (k, j)) + b j
    leaky   the leaky rectifier with slope the float nearest 0.01:  x ↦ x if x ≥ 0, slope * x otherwise
    edge    the edge update:  leaky (((E·W + A) + B) + bias), A and B the two endpoint terms of each edge

  Two spellings of each are proved equal to it. The vector unit multiplies into a zero accumulator, adds the
  endpoint terms one after the other and then the bias cast to a [1, N] row and broadcast down the rows; the host
  adds the two endpoint terms first, then the product (a dot_general), then the bias broadcast in two steps. The two
  orders of the three additions agree because addition of extended reals is commutative and associative: no term
  is moved across a product, so the equalities hold for every extended real, infinite entries included.

  Each layer computes row p of its result from row p of its array operands alone (weights and biases are shared by
  all rows), so each commutes with taking a family of rows: a layer applied to a block of rows is that block of rows
  of the layer applied to the whole matrix.
-/
import proofs.«133075_j53755810676780_1_alg».proof.Proof.LibRowLayers

noncomputable section

namespace Cert.EdgeNet

open Idealize.ShloMosaic Idealize.ShloMosaic.ValueIdx Cert.Lib.RowLayers

/-- An [n, d] matrix of extended reals. -/
abbrev Mat (n d : ℕ) : Type := (⟨2, ![n, d]⟩ : Shape).Idx → EReal
/-- A [d] vector of extended reals. -/
abbrev Vec1 (d : ℕ) : Type := (⟨1, ![d]⟩ : Shape).Idx → EReal

/-! ## The layers -/

/-- Each row times a weight stored [in, out]. -/
def proj (n K N : ℕ) (X : Mat n K) (W : Mat K N) : Mat n N :=
  fun i => ∑ k : Fin K, X (ix2 (i 0) k) * W (ix2 k (i 1))

/-- The same plus a bias. -/
def affine (n K N : ℕ) (X : Mat n K) (W : Mat K N) (b : Vec1 N) : Mat n N :=
  fun i => (∑ k : Fin K, X (ix2 (i 0) k) * W (ix2 k (i 1))) + b (ix1 (i 1))

/-- The leaky rectifier, entry by entry: x where x ≥ 0, the float nearest 0.01 times x elsewhere. -/
def leaky (s : Shape) (x : FVec Ideal s .f32) : FVec Ideal s .f32 :=
  select (cmpf .oge x (broadcast s (Scalar.ofBits .f32 0x00000000#32))) x
    (mulf (broadcast s (Scalar.ofBits .f32 0x3C23D70A#32)) x)

/-- The sum the edge update rectifies: the product, then the two endpoint terms, then the bias. -/
def edgeSum (n K N : ℕ) (E : Mat n K) (W : Mat K N) (bias : Vec1 N) (A B : Mat n N) : Mat n N :=
  fun i => (((∑ k : Fin K, E (ix2 (i 0) k) * W (ix2 k (i 1))) + A i) + B i) + bias (ix1 (i 1))

/-- The edge update. -/
def edge (n K N : ℕ) (E : Mat n K) (W : Mat K N) (bias : Vec1 N) (A B : Mat n N) : Mat n N :=
  leaky ⟨2, ![n, N]⟩ (edgeSum n K N E W bias A B)

/-! ## The vector unit's spellings -/

theorem kernel_proj (n K N : ℕ) {φ₁ φ₂ : FTy} (X : FVec Ideal ⟨2, ![n, K]⟩ φ₁) (W : FVec Ideal ⟨2, ![K, N]⟩ φ₂) :
    matmul (DotDims.plain n K N) none X W (constant ⟨2, ![n, N]⟩ .f32 0x00000000#32) = proj n K N X W := by
  funext i
  obtain ⟨p, q, rfl⟩ : ∃ (p : Fin n) (q : Fin N), i = ix2 p q := ⟨i 0, i 1, eq_ix2 i⟩
  exact matmul_zero_ix2 n K N none X W p q

theorem kernel_affine (n K N : ℕ) {φ₁ φ₂ : FTy} (X : FVec Ideal ⟨2, ![n, K]⟩ φ₁) (W : FVec Ideal ⟨2, ![K, N]⟩ φ₂)
    (b : FVec Ideal ⟨1, ![N]⟩ .f32)
    (hS : (⟨1, ![N]⟩ : Shape).ShapeCasts ⟨2, ![1, N]⟩) (hB : (⟨2, ![1, N]⟩ : Shape).Broadcasts ⟨2, ![n, N]⟩) :
    addf (matmul (DotDims.plain n K N) none X W (constant ⟨2, ![n, N]⟩ .f32 0x00000000#32))
        (broadcastTo ⟨2, ![n, N]⟩ (shapeCast ⟨2, ![1, N]⟩ b hS) hB)
      = affine n K N X W b := by
  funext i
  obtain ⟨p, q, rfl⟩ : ∃ (p : Fin n) (q : Fin N), i = ix2 p q := ⟨i 0, i 1, eq_ix2 i⟩
  show FloatOps.matmul (DotDims.plain n K N) none X W (constant ⟨2, ![n, N]⟩ .f32 0x00000000#32) (ix2 p q)
      + broadcastTo ⟨2, ![n, N]⟩ (shapeCast ⟨2, ![1, N]⟩ b hS) hB (ix2 p q)
    = (∑ k : Fin K, X (ix2 p k) * W (ix2 k q)) + b (ix1 q)
  rw [matmul_zero_ix2, broadcastTo_1b_ab_apply, shapeCast_a_1a_apply]

theorem kernel_edge (n K N : ℕ) {φ₁ φ₂ : FTy} (E : FVec Ideal ⟨2, ![n, K]⟩ φ₁) (W : FVec Ideal ⟨2, ![K, N]⟩ φ₂)
    (bias : FVec Ideal ⟨1, ![N]⟩ .f32) (A B : FVec Ideal ⟨2, ![n, N]⟩ .f32)
    (hS : (⟨1, ![N]⟩ : Shape).ShapeCasts ⟨2, ![1, N]⟩) (hB : (⟨2, ![1, N]⟩ : Shape).Broadcasts ⟨2, ![n, N]⟩) :
    leaky ⟨2, ![n, N]⟩
        (addf (addf (addf (matmul (DotDims.plain n K N) none E W (constant ⟨2, ![n, N]⟩ .f32 0x00000000#32)) A) B)
          (broadcastTo ⟨2, ![n, N]⟩ (shapeCast ⟨2, ![1, N]⟩ bias hS) hB))
      = edge n K N E W bias A B := by
  unfold edge
  refine congrArg (leaky ⟨2, ![n, N]⟩) (funext fun i => ?_)
  obtain ⟨p, q, rfl⟩ : ∃ (p : Fin n) (q : Fin N), i = ix2 p q := ⟨i 0, i 1, eq_ix2 i⟩
  show ((FloatOps.matmul (DotDims.plain n K N) none E W (constant ⟨2, ![n, N]⟩ .f32 0x00000000#32) (ix2 p q)
        + A (ix2 p q)) + B (ix2 p q))
      + broadcastTo ⟨2, ![n, N]⟩ (shapeCast ⟨2, ![1, N]⟩ bias hS) hB (ix2 p q)
    = (((∑ k : Fin K, E (ix2 p k) * W (ix2 k q)) + A (ix2 p q)) + B (ix2 p q)) + bias (ix1 q)
  rw [matmul_zero_ix2, broadcastTo_1b_ab_apply, shapeCast_a_1a_apply]

/-! ## The host's spellings -/

theorem host_proj (n K N : ℕ) (X : FVec Ideal ⟨2, ![n, K]⟩ .f32) (W : FVec Ideal ⟨2, ![K, N]⟩ .f32) :
    Host.dotGeneral (DotDims.plain n K N) none X W = proj n K N X W := by
  funext i
  obtain ⟨p, q, rfl⟩ : ∃ (p : Fin n) (q : Fin N), i = ix2 p q := ⟨i 0, i 1, eq_ix2 i⟩
  exact dotGeneral_ix2 n K N none .single X W p q

theorem host_affine (n K N : ℕ) (X : FVec Ideal ⟨2, ![n, K]⟩ .f32) (W : FVec Ideal ⟨2, ![K, N]⟩ .f32)
    (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![n, N]⟩ ![0, 1]) :
    addf (Host.dotGeneral (DotDims.plain n K N) none X W)
        (broadcastInDim ⟨2, ![n, N]⟩ ![0, 1] h2 (broadcastInDim ⟨2, ![1, N]⟩ ![1] h1 b))
      = affine n K N X W b := by
  funext i
  obtain ⟨p, q, rfl⟩ : ∃ (p : Fin n) (q : Fin N), i = ix2 p q := ⟨i 0, i 1, eq_ix2 i⟩
  show FloatOps.dotGeneral (DotDims.plain n K N) none .single X W (ix2 p q)
      + broadcastInDim ⟨2, ![n, N]⟩ ![0, 1] h2 (broadcastInDim ⟨2, ![1, N]⟩ ![1] h1 b) (ix2 p q)
    = (∑ k : Fin K, X (ix2 p k) * W (ix2 k q)) + b (ix1 q)
  rw [dotGeneral_ix2, host_bias]

/-- The host's rectifier (a comparison with the broadcast zero, a product with the broadcast slope, a select) is the
    rectifier. -/
theorem host_leaky (t : Shape) (x : FVec Ideal t .f32) (h : (⟨0, ![]⟩ : Shape).BroadcastsInDim t ![]) :
    select (cmpf .oge x (broadcastInDim t ![] h (constant (F := Ideal) ⟨0, ![]⟩ .f32 0x00000000#32))) x
        (mulf (broadcastInDim t ![] h (constant (F := Ideal) ⟨0, ![]⟩ .f32 0x3C23D70A#32)) x)
      = leaky t x := by
  funext i
  show Scalar.select (FloatOps.cmpf .oge (x i) (broadcastInDim t ![] h (constant (F := Ideal) ⟨0, ![]⟩ .f32 0x00000000#32) i)) (x i)
      (broadcastInDim t ![] h (constant (F := Ideal) ⟨0, ![]⟩ .f32 0x3C23D70A#32) i * x i)
    = Scalar.select (FloatOps.cmpf .oge (x i) (Ideal.ofBits .f32 0x00000000#32)) (x i) (Ideal.ofBits .f32 0x3C23D70A#32 * x i)
  rw [host_splat, host_splat]

/-- The host's sum — the two endpoint terms first, then the product, then the bias — is the sum the edge update
    rectifies: addition of extended reals is commutative and associative. -/
theorem host_edgeSum (n K N : ℕ) (E : FVec Ideal ⟨2, ![n, K]⟩ .f32) (W : FVec Ideal ⟨2, ![K, N]⟩ .f32)
    (bias : FVec Ideal ⟨1, ![N]⟩ .f32) (A B : FVec Ideal ⟨2, ![n, N]⟩ .f32)
    (h1 : (⟨1, ![N]⟩ : Shape).BroadcastsInDim ⟨2, ![1, N]⟩ ![1])
    (h2 : (⟨2, ![1, N]⟩ : Shape).BroadcastsInDim ⟨2, ![n, N]⟩ ![0, 1]) :
    addf (addf (addf A B) (Host.dotGeneral (DotDims.plain n K N) none E W))
        (broadcastInDim ⟨2, ![n, N]⟩ ![0, 1] h2 (broadcastInDim ⟨2, ![1, N]⟩ ![1] h1 bias))
      = edgeSum n K N E W bias A B := by
  funext i
  obtain ⟨p, q, rfl⟩ : ∃ (p : Fin n) (q : Fin N), i = ix2 p q := ⟨i 0, i 1, eq_ix2 i⟩
  show ((A (ix2 p q) + B (ix2 p q)) + FloatOps.dotGeneral (DotDims.plain n K N) none .single E W (ix2 p q))
      + broadcastInDim ⟨2, ![n, N]⟩ ![0, 1] h2 (broadcastInDim ⟨2, ![1, N]⟩ ![1] h1 bias) (ix2 p q)
    = (((∑ k : Fin K, E (ix2 p k) * W (ix2 k q)) + A (ix2 p q)) + B (ix2 p q)) + bias (ix1 q)
  rw [dotGeneral_ix2, host_bias, add_comm (A (ix2 p q) + B (ix2 p q)), ← add_assoc]

/-! ## Taking a family of rows -/

variable (n' n : ℕ) (e : Fin n' → Fin n)

theorem proj_rows (K N : ℕ) (X : Mat n K) (W : Mat K N) :
    proj n' K N (rows n' n K e X) W = rows n' n N e (proj n K N X W) := rfl

theorem affine_rows (K N : ℕ) (X : Mat n K) (W : Mat K N) (b : Vec1 N) :
    affine n' K N (rows n' n K e X) W b = rows n' n N e (affine n K N X W b) := rfl

theorem edge_rows (K N : ℕ) (E : Mat n K) (W : Mat K N) (bias : Vec1 N) (A B : Mat n N) :
    edge n' K N (rows n' n K e E) W bias (rows n' n N e A) (rows n' n N e B)
      = rows n' n N e (edge n K N E W bias A B) := rfl

end Cert.EdgeNet

end
-- ==== Proof.NodeRegion.lean ====
/-
  The node-side region of the program, read as values: what its three output arrays hold after the region, as
  whole-array functions of the buffer contents the region is entered with.

  The region walks the node table in 50 blocks of 2000 rows. At point t it reads rows 2000 t … 2000 t + 1999 of the
  table (all 64 columns), three whole 64 x 64 weights and a whole bias, and writes the same rows of three outputs:
  the block times the first weight, the block times the second weight, and the block times the third weight plus the
  bias. Each of these is a row-wise layer, so the block a point writes is that block of rows of the layer applied to
  the whole table; and every row r of the table lies in the block of point r / 2000, so after the region each output
  array is the layer of the whole table.
-/
import proofs.«133075_j53755810676780_1_alg».proof.Proof.Gen.KernelIdeal.Frame
import proofs.«133075_j53755810676780_1_alg».proof.Proof.EdgeNet
import Idealize.ShloMosaic.Lib.Pipeline.Value

set_option maxRecDepth 16384

noncomputable section

namespace Cert.KernelIdeal.NodeRegion

open Idealize.ShloMosaic Idealize.ShloMosaic.ValueIdx Idealize.ShloMosaic.TcCoe Idealize.SL.Sem
open Cert.KernelIdeal Cert.KernelIdeal.Gen Cert.Lib.RowLayers Cert.EdgeNet
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

theorem pay2_eq (x0 : FVec Ideal S2000x64 .f32) (x1 : FVec Ideal S64x64 .f32) :
    k0_pay2 (F := Ideal) x0 x1 = proj 2000 64 64 x0 x1 := by
  show matmul dot_S2000x64_S64x64_S2000x64_1_0_0_1_n_n none x0 (shapeCast S64x64 x1 shapeCasts_S64x64_S64x64)
      (constant S2000x64 .f32 0x00000000#32) = _
  rw [shapeCast_self]
  exact kernel_proj 2000 64 64 x0 x1

theorem pay3_eq (x0 : FVec Ideal S2000x64 .f32) (x1 : FVec Ideal S64x64 .f32) :
    k0_pay3 (F := Ideal) x0 x1 = proj 2000 64 64 x0 x1 := by
  show matmul dot_S2000x64_S64x64_S2000x64_1_0_0_1_n_n none x0 (shapeCast S64x64 x1 shapeCasts_S64x64_S64x64)
      (constant S2000x64 .f32 0x00000000#32) = _
  rw [shapeCast_self]
  exact kernel_proj 2000 64 64 x0 x1

theorem pay4_eq (x0 : FVec Ideal S2000x64 .f32) (x1 : FVec Ideal S64x64 .f32) (b : FVec Ideal S64 .f32) :
    k0_pay4 (F := Ideal) x0 x1 b = affine 2000 64 64 x0 x1 b := by
  show addf (matmul dot_S2000x64_S64x64_S2000x64_1_0_0_1_n_n none x0 (shapeCast S64x64 x1 shapeCasts_S64x64_S64x64)
      (constant S2000x64 .f32 0x00000000#32)) (broadcastTo S2000x64 (shapeCast S1x64 b shapeCasts_S64_S1x64) broadcasts_S1x64_S2000x64) = _
  rw [shapeCast_self]
  exact kernel_affine 2000 64 64 x0 x1 b _ _

theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = t.val ∧ win0_5.index t (1 : Fin 2) = 0
    ∧ win0_6.index t (0 : Fin 2) = t.val ∧ win0_6.index t (1 : Fin 2) = 0
    ∧ win0_7.index t (0 : Fin 2) = t.val ∧ win0_7.index t (1 : Fin 2) = 0 :=
  (by decide +kernel : ∀ t : Fin grid0.N, _)

/-- Row r of point t's block is row 2000 t + r of the node table. -/
def rowAt (t : Fin cfg0.N) (r : Fin 2000) : Fin 100000 :=
  ⟨t.val * 2000 + r.val, by have h : t.val < 50 := lt_of_lt_of_eq t.isLt N_0; have := r.isLt; omega⟩

/-! ## Each window's block at a point, read off its array -/

theorem read_blk0 (t : Fin cfg0.N) (X : S100000x64.Idx → EReal) :
    ((cfg0.win 0).blk t).view.read (Elt Ideal) X = rows 2000 100000 64 (rowAt t) X := by
  obtain ⟨e0, e1, -⟩ := idx_facts t
  funext j
  show X (((cfg0.win 0).blk t).view.emb j) = X (ix2 (rowAt t (j 0)) (j 1))
  refine congrArg X (funext fun a => Fin.ext ?_)
  match a with
  | ⟨0, _⟩ => show win0_0.index t (0 : Fin 2) * 2000 + 1 * (j 0).val = t.val * 2000 + (j 0).val; rw [e0]; omega
  | ⟨1, _⟩ => show win0_0.index t (1 : Fin 2) * 64 + 1 * (j 1).val = (j 1).val; rw [e1]; omega

theorem read_whole1 (t : Fin cfg0.N) (X : S64x64.Idx → EReal) :
    ((cfg0.win 1).blk t).view.read (Elt Ideal) X = X := by
  obtain ⟨-, -, e0, e1, -⟩ := idx_facts t
  funext j
  show X (((cfg0.win 1).blk t).view.emb j) = X j
  refine congrArg X (funext fun a => Fin.ext ?_)
  match a with
  | ⟨0, _⟩ => show win0_1.index t (0 : Fin 2) * 64 + 1 * (j 0).val = (j 0).val; rw [e0]; omega
  | ⟨1, _⟩ => show win0_1.index t (1 : Fin 2) * 64 + 1 * (j 1).val = (j 1).val; rw [e1]; omega

theorem read_whole2 (t : Fin cfg0.N) (X : S64x64.Idx → EReal) :
    ((cfg0.win 2).blk t).view.read (Elt Ideal) X = X := by
  obtain ⟨-, -, -, -, e0, e1, -⟩ := idx_facts t
  funext j
  show X (((cfg0.win 2).blk t).view.emb j) = X j
  refine congrArg X (funext fun a => Fin.ext ?_)
  match a with
  | ⟨0, _⟩ => show win0_2.index t (0 : Fin 2) * 64 + 1 * (j 0).val = (j 0).val; rw [e0]; omega
  | ⟨1, _⟩ => show win0_2.index t (1 : Fin 2) * 64 + 1 * (j 1).val = (j 1).val; rw [e1]; omega

theorem read_whole3 (t : Fin cfg0.N) (X : S64x64.Idx → EReal) :
    ((cfg0.win 3).blk t).view.read (Elt Ideal) X = X := by
  obtain ⟨-, -, -, -, -, -, e0, e1, -⟩ := idx_facts t
  funext j
  show X (((cfg0.win 3).blk t).view.emb j) = X j
  refine congrArg X (funext fun a => Fin.ext ?_)
  match a with
  | ⟨0, _⟩ => show win0_3.index t (0 : Fin 2) * 64 + 1 * (j 0).val = (j 0).val; rw [e0]; omega
  | ⟨1, _⟩ => show win0_3.index t (1 : Fin 2) * 64 + 1 * (j 1).val = (j 1).val; rw [e1]; omega

theorem read_whole4 (t : Fin cfg0.N) (X : S64.Idx → EReal) :
    ((cfg0.win 4).blk t).view.read (Elt Ideal) X = X := by
  obtain ⟨-, -, -, -, -, -, -, -, e0, -⟩ := idx_facts t
  funext j
  show X (((cfg0.win 4).blk t).view.emb j) = X j
  refine congrArg X (funext fun a => Fin.ext ?_)
  match a with
  | ⟨0, _⟩ => show win0_4.index t (0 : Fin 1) * 64 + 1 * (j 0).val = (j 0).val; rw [e0]; omega

theorem read_blk5 (t : Fin cfg0.N) (X : S100000x64.Idx → EReal) :
    ((cfg0.win 5).blk t).view.read (Elt Ideal) X = rows 2000 100000 64 (rowAt t) X := by
  obtain ⟨-, -, -, -, -, -, -, -, -, e0, e1, -⟩ := idx_facts t
  funext j
  show X (((cfg0.win 5).blk t).view.emb j) = X (ix2 (rowAt t (j 0)) (j 1))
  refine congrArg X (funext fun a => Fin.ext ?_)
  match a with
  | ⟨0, _⟩ => show win0_5.index t (0 : Fin 2) * 2000 + 1 * (j 0).val = t.val * 2000 + (j 0).val; rw [e0]; omega
  | ⟨1, _⟩ => show win0_5.index t (1 : Fin 2) * 64 + 1 * (j 1).val = (j 1).val; rw [e1]; omega

theorem read_blk6 (t : Fin cfg0.N) (X : S100000x64.Idx → EReal) :
    ((cfg0.win 6).blk t).view.read (Elt Ideal) X = rows 2000 100000 64 (rowAt t) X := by
  obtain ⟨-, -, -, -, -, -, -, -, -, -, -, e0, e1, -⟩ := idx_facts t
  funext j
  show X (((cfg0.win 6).blk t).view.emb j) = X (ix2 (rowAt t (j 0)) (j 1))
  refine congrArg X (funext fun a => Fin.ext ?_)
  match a with
  | ⟨0, _⟩ => show win0_6.index t (0 : Fin 2) * 2000 + 1 * (j 0).val = t.val * 2000 + (j 0).val; rw [e0]; omega
  | ⟨1, _⟩ => show win0_6.index t (1 : Fin 2) * 64 + 1 * (j 1).val = (j 1).val; rw [e1]; omega

theorem read_blk7 (t : Fin cfg0.N) (X : S100000x64.Idx → EReal) :
    ((cfg0.win 7).blk t).view.read (Elt Ideal) X = rows 2000 100000 64 (rowAt t) X := by
  obtain ⟨-, -, -, -, -, -, -, -, -, -, -, -, -, e0, e1⟩ := idx_facts t
  funext j
  show X (((cfg0.win 7).blk t).view.emb j) = X (ix2 (rowAt t (j 0)) (j 1))
  refine congrArg X (funext fun a => Fin.ext ?_)
  match a with
  | ⟨0, _⟩ => show win0_7.index t (0 : Fin 2) * 2000 + 1 * (j 0).val = t.val * 2000 + (j 0).val; rw [e0]; omega
  | ⟨1, _⟩ => show win0_7.index t (1 : Fin 2) * 64 + 1 * (j 1).val = (j 1).val; rw [e1]; omega

theorem iblk_0 (c : Dev nD) (t : Fin cfg0.N) : iblk0 V c 0 t = rows 2000 100000 64 (rowAt t) (V c main_arg0) :=
  read_blk0 t (V c main_arg0)
theorem iblk_1 (c : Dev nD) (t : Fin cfg0.N) : iblk0 V c 1 t = V c main_v0 := read_whole1 t (V c main_v0)
theorem iblk_2 (c : Dev nD) (t : Fin cfg0.N) : iblk0 V c 2 t = V c main_v1 := read_whole2 t (V c main_v1)
theorem iblk_3 (c : Dev nD) (t : Fin cfg0.N) : iblk0 V c 3 t = V c main_v2 := read_whole3 t (V c main_v2)
theorem iblk_4 (c : Dev nD) (t : Fin cfg0.N) : iblk0 V c 4 t = V c main_arg5 := read_whole4 t (V c main_arg5)

/-! ## What a point writes back is its block of rows of the layer of the whole table -/

theorem flushed5_eq (c : Dev nD) (t : Fin cfg0.N) :
    (dat0 V c).flushed 5 t
      = ((cfg0.win 5).blk t).view.read (Elt Ideal) (proj 100000 64 64 (V c main_arg0) (V c main_v0)) := by
  show (cfg0.win 5).cut (grid0.coords t) ((dat0 V c).after 5 t) = _
  rw [after0_5]
  unfold out0_5
  rw [View.canon_unit_zero hz2]
  simp only [View.ld_unit_zero (S := S2000x64) hz2, View.ld_unit_zero (S := S64x64) hz2]
  rw [pay2_eq, iblk_0, iblk_1, proj_rows, read_blk5]
  rfl

theorem flushed6_eq (c : Dev nD) (t : Fin cfg0.N) :
    (dat0 V c).flushed 6 t
      = ((cfg0.win 6).blk t).view.read (Elt Ideal) (proj 100000 64 64 (V c main_arg0) (V c main_v1)) := by
  show (cfg0.win 6).cut (grid0.coords t) ((dat0 V c).after 6 t) = _
  rw [after0_6]
  unfold out0_6
  rw [View.canon_unit_zero hz2]
  simp only [View.ld_unit_zero (S := S2000x64) hz2, View.ld_unit_zero (S := S64x64) hz2]
  rw [pay3_eq, iblk_0, iblk_2, proj_rows, read_blk6]
  rfl

theorem flushed7_eq (c : Dev nD) (t : Fin cfg0.N) :
    (dat0 V c).flushed 7 t
      = ((cfg0.win 7).blk t).view.read (Elt Ideal)
          (affine 100000 64 64 (V c main_arg0) (V c main_v2) (V c main_arg5)) := by
  show (cfg0.win 7).cut (grid0.coords t) ((dat0 V c).after 7 t) = _
  rw [after0_7]
  unfold out0_7
  rw [View.canon_unit_zero hz2]
  simp only [View.ld_unit_zero (S := S2000x64) hz2, View.ld_unit_zero (S := S64x64) hz2, View.ld_unit_zero (S := S64) hz1]
  rw [pay4_eq, iblk_0, iblk_3, iblk_4, affine_rows, read_blk7]
  rfl

/-! ## The blocks cover the arrays -/

theorem mem_blk5 (t : Fin cfg0.N) (i : S100000x64.Idx) :
    i ∈ ((cfg0.win 5).blk t).view.set ↔ ∀ a : Fin 2, win0_5.index t a * S2000x64.size a ≤ (i a).val
      ∧ (i a).val < win0_5.index t a * S2000x64.size a + S2000x64.size a := by
  show i ∈ ((View.whole main_v4_0).slice (win0_5.rect t)).set ↔ _
  rw [View.set_slice_whole, Rect.mem_set_unit]
  exact Iff.rfl

/-- Row r of the table lies in the block of point r / 2000. -/
theorem cover5 (i : S100000x64.Idx) :
    ∃ t : Fin cfg0.N, (cfg0.win 5).flush t = true ∧ i ∈ ((cfg0.win 5).blk t).view.set := by
  have hi0 : (i 0).val < 100000 := (i 0).isLt
  have hi1 : (i 1).val < 64 := (i 1).isLt
  have hN : cfg0.N = 50 := N_0
  have ht : (i 0).val / 2000 < cfg0.N := by rw [hN]; omega
  obtain ⟨-, -, -, -, -, -, -, -, -, e0, e1, -⟩ := idx_facts ⟨(i 0).val / 2000, ht⟩
  refine ⟨⟨(i 0).val / 2000, ht⟩, flush0_5 _, ?_⟩
  rw [mem_blk5]
  intro a
  match a with
  | ⟨0, _⟩ =>
    show win0_5.index ⟨(i 0).val / 2000, ht⟩ (0 : Fin 2) * 2000 ≤ (i 0).val
      ∧ (i 0).val < win0_5.index ⟨(i 0).val / 2000, ht⟩ (0 : Fin 2) * 2000 + 2000
    rw [e0]
    show (i 0).val / 2000 * 2000 ≤ (i 0).val ∧ (i 0).val < (i 0).val / 2000 * 2000 + 2000
    omega
  | ⟨1, _⟩ =>
    show win0_5.index ⟨(i 0).val / 2000, ht⟩ (1 : Fin 2) * 64 ≤ (i 1).val
      ∧ (i 1).val < win0_5.index ⟨(i 0).val / 2000, ht⟩ (1 : Fin 2) * 64 + 64
    rw [e1]
    omega

theorem mem_blk6 (t : Fin cfg0.N) (i : S100000x64.Idx) :
    i ∈ ((cfg0.win 6).blk t).view.set ↔ ∀ a : Fin 2, win0_6.index t a * S2000x64.size a ≤ (i a).val
      ∧ (i a).val < win0_6.index t a * S2000x64.size a + S2000x64.size a := by
  show i ∈ ((View.whole main_v4_1).slice (win0_6.rect t)).set ↔ _
  rw [View.set_slice_whole, Rect.mem_set_unit]
  exact Iff.rfl

/-- Row r of the table lies in the block of point r / 2000. -/
theorem cover6 (i : S100000x64.Idx) :
    ∃ t : Fin cfg0.N, (cfg0.win 6).flush t = true ∧ i ∈ ((cfg0.win 6).blk t).view.set := by
  have hi0 : (i 0).val < 100000 := (i 0).isLt
  have hi1 : (i 1).val < 64 := (i 1).isLt
  have hN : cfg0.N = 50 := N_0
  have ht : (i 0).val / 2000 < cfg0.N := by rw [hN]; omega
  obtain ⟨-, -, -, -, -, -, -, -, -, -, -, e0, e1, -⟩ := idx_facts ⟨(i 0).val / 2000, ht⟩
  refine ⟨⟨(i 0).val / 2000, ht⟩, flush0_6 _, ?_⟩
  rw [mem_blk6]
  intro a
  match a with
  | ⟨0, _⟩ =>
    show win0_6.index ⟨(i 0).val / 2000, ht⟩ (0 : Fin 2) * 2000 ≤ (i 0).val
      ∧ (i 0).val < win0_6.index ⟨(i 0).val / 2000, ht⟩ (0 : Fin 2) * 2000 + 2000
    rw [e0]
    show (i 0).val / 2000 * 2000 ≤ (i 0).val ∧ (i 0).val < (i 0).val / 2000 * 2000 + 2000
    omega
  | ⟨1, _⟩ =>
    show win0_6.index ⟨(i 0).val / 2000, ht⟩ (1 : Fin 2) * 64 ≤ (i 1).val
      ∧ (i 1).val < win0_6.index ⟨(i 0).val / 2000, ht⟩ (1 : Fin 2) * 64 + 64
    rw [e1]
    omega

theorem mem_blk7 (t : Fin cfg0.N) (i : S100000x64.Idx) :
    i ∈ ((cfg0.win 7).blk t).view.set ↔ ∀ a : Fin 2, win0_7.index t a * S2000x64.size a ≤ (i a).val
      ∧ (i a).val < win0_7.index t a * S2000x64.size a + S2000x64.size a := by
  show i ∈ ((View.whole main_v4_2).slice (win0_7.rect t)).set ↔ _
  rw [View.set_slice_whole, Rect.mem_set_unit]
  exact Iff.rfl

/-- Row r of the table lies in the block of point r / 2000. -/
theorem cover7 (i : S100000x64.Idx) :
    ∃ t : Fin cfg0.N, (cfg0.win 7).flush t = true ∧ i ∈ ((cfg0.win 7).blk t).view.set := by
  have hi0 : (i 0).val < 100000 := (i 0).isLt
  have hi1 : (i 1).val < 64 := (i 1).isLt
  have hN : cfg0.N = 50 := N_0
  have ht : (i 0).val / 2000 < cfg0.N := by rw [hN]; omega
  obtain ⟨-, -, -, -, -, -, -, -, -, -, -, -, -, e0, e1⟩ := idx_facts ⟨(i 0).val / 2000, ht⟩
  refine ⟨⟨(i 0).val / 2000, ht⟩, flush0_7 _, ?_⟩
  rw [mem_blk7]
  intro a
  match a with
  | ⟨0, _⟩ =>
    show win0_7.index ⟨(i 0).val / 2000, ht⟩ (0 : Fin 2) * 2000 ≤ (i 0).val
      ∧ (i 0).val < win0_7.index ⟨(i 0).val / 2000, ht⟩ (0 : Fin 2) * 2000 + 2000
    rw [e0]
    show (i 0).val / 2000 * 2000 ≤ (i 0).val ∧ (i 0).val < (i 0).val / 2000 * 2000 + 2000
    omega
  | ⟨1, _⟩ =>
    show win0_7.index ⟨(i 0).val / 2000, ht⟩ (1 : Fin 2) * 64 ≤ (i 1).val
      ∧ (i 1).val < win0_7.index ⟨(i 0).val / 2000, ht⟩ (1 : Fin 2) * 64 + 64
    rw [e1]
    omega

/-! ## The three arrays after the region -/

theorem final5 (c : Dev nD) :
    (dat0 V c).arrAt 5 cfg0.N = proj 100000 64 64 (V c main_arg0) (V c main_v0) :=
  (dat0 V c).arrAt_eq_of_cover 5 _ (fun t _ => flushed5_eq V c t) cover5

theorem final6 (c : Dev nD) :
    (dat0 V c).arrAt 6 cfg0.N = proj 100000 64 64 (V c main_arg0) (V c main_v1) :=
  (dat0 V c).arrAt_eq_of_cover 6 _ (fun t _ => flushed6_eq V c t) cover6

theorem final7 (c : Dev nD) :
    (dat0 V c).arrAt 7 cfg0.N = affine 100000 64 64 (V c main_arg0) (V c main_v2) (V c main_arg5) :=
  (dat0 V c).arrAt_eq_of_cover 7 _ (fun t _ => flushed7_eq V c t) cover7

end Cert.KernelIdeal.NodeRegion

end
-- ==== Proof.EdgeRegion.lean ====
/-
  The edge-side region of the program, read as values: what its output array holds after the region, as a
  whole-array function of the buffer contents the region is entered with.

  The region walks the edges in 200 blocks of 8000 rows. At point t it reads rows 8000 t … 8000 t + 7999 of the
  edge features and of the two gathered endpoint terms (all 64 columns), a whole 64 x 64 weight and a whole bias, and
  writes the same rows of the output: the leaky rectifier of the block times the weight, plus the two endpoint blocks,
  plus the bias. This is a row-wise layer, so the block a point writes is that block of rows of the layer applied to
  the whole arrays; and every edge r lies in the block of point r / 8000, so after the region the output array is the
  layer of the whole arrays.
-/
import proofs.«133075_j53755810676780_1_alg».proof.Proof.Gen.KernelIdeal.Frame
import proofs.«133075_j53755810676780_1_alg».proof.Proof.EdgeNet
import Idealize.ShloMosaic.Lib.Pipeline.Value

set_option maxRecDepth 16384

noncomputable section

namespace Cert.KernelIdeal.EdgeRegion

open Idealize.ShloMosaic Idealize.ShloMosaic.ValueIdx Idealize.ShloMosaic.TcCoe Idealize.SL.Sem
open Cert.KernelIdeal Cert.KernelIdeal.Gen Cert.Lib.RowLayers Cert.EdgeNet
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The body's arithmetic on whole blocks is the edge update of the blocks. -/
theorem pay1_eq (x0 : FVec Ideal S8000x64 .f32) (x1 : FVec Ideal S64x64 .f32) (a b : FVec Ideal S8000x64 .f32)
    (bias : FVec Ideal S64 .f32) :
    k1_pay1 (F := Ideal) x0 x1 a b bias = edge 8000 64 64 x0 x1 bias a b := by
  show leaky S8000x64
      (addf (addf (addf (matmul dot_S8000x64_S64x64_S8000x64_1_0_0_1_n_n none x0
          (shapeCast S64x64 x1 shapeCasts_S64x64_S64x64) (constant S8000x64 .f32 0x00000000#32))
        (shapeCast S8000x64 a shapeCasts_S8000x64_S8000x64)) (shapeCast S8000x64 b shapeCasts_S8000x64_S8000x64))
        (broadcastTo S8000x64 (shapeCast S1x64 bias shapeCasts_S64_S1x64) broadcasts_S1x64_S8000x64)) = _
  rw [shapeCast_self, shapeCast_self, shapeCast_self]
  exact kernel_edge 8000 64 64 x0 x1 bias a b _ _

theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 1) = 0
    ∧ win1_3.index t (0 : Fin 2) = t.val ∧ win1_3.index t (1 : Fin 2) = 0
    ∧ win1_4.index t (0 : Fin 2) = t.val ∧ win1_4.index t (1 : Fin 2) = 0
    ∧ win1_5.index t (0 : Fin 2) = t.val ∧ win1_5.index t (1 : Fin 2) = 0 :=
  (by decide +kernel : ∀ t : Fin grid1.N, _)

/-- Row r of point t's block is edge 8000 t + r. -/
def rowAt (t : Fin cfg1.N) (r : Fin 8000) : Fin 1600000 :=
  ⟨t.val * 8000 + r.val, by have h : t.val < 200 := lt_of_lt_of_eq t.isLt N_1; have := r.isLt; omega⟩

/-! ## Each window's block at a point, read off its array -/

theorem read_blk0 (t : Fin cfg1.N) (X : S1600000x64.Idx → EReal) :
    ((cfg1.win 0).blk t).view.read (Elt Ideal) X = rows 8000 1600000 64 (rowAt t) X := by
  obtain ⟨e0, e1, -⟩ := idx_facts t
  funext j
  show X (((cfg1.win 0).blk t).view.emb j) = X (ix2 (rowAt t (j 0)) (j 1))
  refine congrArg X (funext fun a => Fin.ext ?_)
  match a with
  | ⟨0, _⟩ => show win1_0.index t (0 : Fin 2) * 8000 + 1 * (j 0).val = t.val * 8000 + (j 0).val; rw [e0]; omega
  | ⟨1, _⟩ => show win1_0.index t (1 : Fin 2) * 64 + 1 * (j 1).val = (j 1).val; rw [e1]; omega

theorem read_whole1 (t : Fin cfg1.N) (X : S64x64.Idx → EReal) :
    ((cfg1.win 1).blk t).view.read (Elt Ideal) X = X := by
  obtain ⟨-, -, e0, e1, -⟩ := idx_facts t
  funext j
  show X (((cfg1.win 1).blk t).view.emb j) = X j
  refine congrArg X (funext fun a => Fin.ext ?_)
  match a with
  | ⟨0, _⟩ => show win1_1.index t (0 : Fin 2) * 64 + 1 * (j 0).val = (j 0).val; rw [e0]; omega
  | ⟨1, _⟩ => show win1_1.index t (1 : Fin 2) * 64 + 1 * (j 1).val = (j 1).val; rw [e1]; omega

theorem read_whole2 (t : Fin cfg1.N) (X : S64.Idx → EReal) :
    ((cfg1.win 2).blk t).view.read (Elt Ideal) X = X := by
  obtain ⟨-, -, -, -, e0, -⟩ := idx_facts t
  funext j
  show X (((cfg1.win 2).blk t).view.emb j) = X j
  refine congrArg X (funext fun a => Fin.ext ?_)
  match a with
  | ⟨0, _⟩ => show win1_2.index t (0 : Fin 1) * 64 + 1 * (j 0).val = (j 0).val; rw [e0]; omega

theorem read_blk3 (t : Fin cfg1.N) (X : S1600000x64.Idx → EReal) :
    ((cfg1.win 3).blk t).view.read (Elt Ideal) X = rows 8000 1600000 64 (rowAt t) X := by
  obtain ⟨-, -, -, -, -, e0, e1, -⟩ := idx_facts t
  funext j
  show X (((cfg1.win 3).blk t).view.emb j) = X (ix2 (rowAt t (j 0)) (j 1))
  refine congrArg X (funext fun a => Fin.ext ?_)
  match a with
  | ⟨0, _⟩ => show win1_3.index t (0 : Fin 2) * 8000 + 1 * (j 0).val = t.val * 8000 + (j 0).val; rw [e0]; omega
  | ⟨1, _⟩ => show win1_3.index t (1 : Fin 2) * 64 + 1 * (j 1).val = (j 1).val; rw [e1]; omega

theorem read_blk4 (t : Fin cfg1.N) (X : S1600000x64.Idx → EReal) :
    ((cfg1.win 4).blk t).view.read (Elt Ideal) X = rows 8000 1600000 64 (rowAt t) X := by
  obtain ⟨-, -, -, -, -, -, -, e0, e1, -⟩ := idx_facts t
  funext j
  show X (((cfg1.win 4).blk t).view.emb j) = X (ix2 (rowAt t (j 0)) (j 1))
  refine congrArg X (funext fun a => Fin.ext ?_)
  match a with
  | ⟨0, _⟩ => show win1_4.index t (0 : Fin 2) * 8000 + 1 * (j 0).val = t.val * 8000 + (j 0).val; rw [e0]; omega
  | ⟨1, _⟩ => show win1_4.index t (1 : Fin 2) * 64 + 1 * (j 1).val = (j 1).val; rw [e1]; omega

theorem read_blk5 (t : Fin cfg1.N) (X : S1600000x64.Idx → EReal) :
    ((cfg1.win 5).blk t).view.read (Elt Ideal) X = rows 8000 1600000 64 (rowAt t) X := by
  obtain ⟨-, -, -, -, -, -, -, -, -, e0, e1⟩ := idx_facts t
  funext j
  show X (((cfg1.win 5).blk t).view.emb j) = X (ix2 (rowAt t (j 0)) (j 1))
  refine congrArg X (funext fun a => Fin.ext ?_)
  match a with
  | ⟨0, _⟩ => show win1_5.index t (0 : Fin 2) * 8000 + 1 * (j 0).val = t.val * 8000 + (j 0).val; rw [e0]; omega
  | ⟨1, _⟩ => show win1_5.index t (1 : Fin 2) * 64 + 1 * (j 1).val = (j 1).val; rw [e1]; omega

theorem iblk_0 (c : Dev nD) (t : Fin cfg1.N) : iblk1 V c 0 t = rows 8000 1600000 64 (rowAt t) (V c main_arg1) :=
  read_blk0 t (V c main_arg1)
theorem iblk_1 (c : Dev nD) (t : Fin cfg1.N) : iblk1 V c 1 t = V c main_v3 := read_whole1 t (V c main_v3)
theorem iblk_2 (c : Dev nD) (t : Fin cfg1.N) : iblk1 V c 2 t = V c main_arg9 := read_whole2 t (V c main_arg9)
theorem iblk_3 (c : Dev nD) (t : Fin cfg1.N) : iblk1 V c 3 t = rows 8000 1600000 64 (rowAt t) (V c main_v11) :=
  read_blk3 t (V c main_v11)
theorem iblk_4 (c : Dev nD) (t : Fin cfg1.N) : iblk1 V c 4 t = rows 8000 1600000 64 (rowAt t) (V c main_v18) :=
  read_blk4 t (V c main_v18)

/-! ## What a point writes back is its block of rows of the edge update of the whole arrays -/

theorem flushed5_eq (c : Dev nD) (t : Fin cfg1.N) :
    (dat1 V c).flushed 5 t
      = ((cfg1.win 5).blk t).view.read (Elt Ideal)
          (edge 1600000 64 64 (V c main_arg1) (V c main_v3) (V c main_arg9) (V c main_v11) (V c main_v18)) := by
  show (cfg1.win 5).cut (grid1.coords t) ((dat1 V c).after 5 t) = _
  rw [after1_5]
  unfold out1_5
  rw [View.canon_unit_zero hz2]
  simp only [View.ld_unit_zero (S := S8000x64) hz2, View.ld_unit_zero (S := S64x64) hz2, View.ld_unit_zero (S := S64) hz1]
  rw [pay1_eq, iblk_0, iblk_1, iblk_2, iblk_3, iblk_4, edge_rows, read_blk5]
  rfl

/-! ## The blocks cover the array -/

theorem mem_blk5 (t : Fin cfg1.N) (i : S1600000x64.Idx) :
    i ∈ ((cfg1.win 5).blk t).view.set ↔ ∀ a : Fin 2, win1_5.index t a * S8000x64.size a ≤ (i a).val
      ∧ (i a).val < win1_5.index t a * S8000x64.size a + S8000x64.size a := by
  show i ∈ ((View.whole main_v19).slice (win1_5.rect t)).set ↔ _
  rw [View.set_slice_whole, Rect.mem_set_unit]
  exact Iff.rfl

/-- Edge r lies in the block of point r / 8000. -/
theorem cover5 (i : S1600000x64.Idx) :
    ∃ t : Fin cfg1.N, (cfg1.win 5).flush t = true ∧ i ∈ ((cfg1.win 5).blk t).view.set := by
  have hi0 : (i 0).val < 1600000 := (i 0).isLt
  have hi1 : (i 1).val < 64 := (i 1).isLt
  have hN : cfg1.N = 200 := N_1
  have ht : (i 0).val / 8000 < cfg1.N := by rw [hN]; omega
  obtain ⟨-, -, -, -, -, -, -, -, -, e0, e1⟩ := idx_facts ⟨(i 0).val / 8000, ht⟩
  refine ⟨⟨(i 0).val / 8000, ht⟩, flush1_5 _, ?_⟩
  rw [mem_blk5]
  intro a
  match a with
  | ⟨0, _⟩ =>
    show win1_5.index ⟨(i 0).val / 8000, ht⟩ (0 : Fin 2) * 8000 ≤ (i 0).val
      ∧ (i 0).val < win1_5.index ⟨(i 0).val / 8000, ht⟩ (0 : Fin 2) * 8000 + 8000
    rw [e0]
    show (i 0).val / 8000 * 8000 ≤ (i 0).val ∧ (i 0).val < (i 0).val / 8000 * 8000 + 8000
    omega
  | ⟨1, _⟩ =>
    show win1_5.index ⟨(i 0).val / 8000, ht⟩ (1 : Fin 2) * 64 ≤ (i 1).val
      ∧ (i 1).val < win1_5.index ⟨(i 0).val / 8000, ht⟩ (1 : Fin 2) * 64 + 64
    rw [e1]
    omega

/-! ## The array after the region -/

theorem final5 (c : Dev nD) :
    (dat1 V c).arrAt 5 cfg1.N
      = edge 1600000 64 64 (V c main_arg1) (V c main_v3) (V c main_arg9) (V c main_v11) (V c main_v18) :=
  (dat1 V c).arrAt_eq_of_cover 5 _ (fun t _ => flushed5_eq V c t) cover5

end Cert.KernelIdeal.EdgeRegion

end
-- ==== Proof.HostGlue.lean ====
/-
  The operations the two programs apply identically on the host, named once, at the ideal values.

    wrapIdx     a signed 32-bit index array made a column [E, 1], an index below zero counting from the end of the
                100000-row table (the index plus 100000)
    gatherRows  the rows of a [100000, 64] table the wrapped indices name, as an [E, 64] array
    meanIn      for each node, the sum over its in-edges of the source node's row, divided by the larger of its
                in-degree and one (so a node without in-edges gets zero): a scatter-add of the gathered rows by
                destination, a scatter-add of ones by destination for the degree, a maximum, a quotient

  and the two results of the message-passing step as functions of the ten arguments:

    edgeOut     the edge update of the edge features against the transposed edge weight, with the two endpoint terms
                the gathered rows of the node table times the two transposed endpoint weights
    nodeOut     meanIn of the node table times the transposed node weight plus the node bias

  Nothing here is opened: the gather and the two scatter-adds stay as the host's own operations.
-/
import proofs.«133075_j53755810676780_1_alg».proof.ReferenceIdeal
import proofs.«133075_j53755810676780_1_alg».proof.Proof.Gen.ReferenceIdeal
import proofs.«133075_j53755810676780_1_alg».proof.Proof.EdgeNet

noncomputable section

namespace Cert.HostGlue

open Idealize.ShloMosaic Cert.ReferenceIdeal Cert.ReferenceIdeal.Gen Cert.EdgeNet

/-- A signed index array as a column, an index below zero counting from the end of the table. -/
def wrapIdx (x : IVec S1600000 32) : IVec S1600000x1 32 :=
  broadcastInDim S1600000x1 ![0] bcast_S1600000_S1600000x1_0
    (select (cmpi .slt x (broadcastInDim S1600000 ![] bcast_S_S1600000 (constantI S_ 32 0#32)))
      (addi x (broadcastInDim S1600000 ![] bcast_S_S1600000 (constantI S_ 32 100000#32))) x)

/-- The rows of a table the wrapped indices name. -/
def gatherRows (T : FVec Ideal S100000x64 .f32) (x : IVec S1600000 32) : FVec Ideal S1600000x64 .f32 :=
  Host.gather gather_S100000x64_S1600000x1_S1600000x64_1_0_n_n_0_1_164 T (wrapIdx x)

/-- The mean over each node's in-edges of the source rows of h (zero where there is none). -/
def meanIn (h : FVec Ideal S100000x64 .f32) (src dst : IVec S1600000 32) : FVec Ideal S100000x64 .f32 :=
  Host.divf
    (Host.scatterAdd scatter_S100000x64_S1600000x1_S1600000x64_1_0_0_1
      (broadcastInDim S100000x64 ![] bcast_S_S100000x64 (constant (F := Ideal) S_ .f32 0x00000000#32))
      (broadcastInDim S1600000x1 ![0] bcast_S1600000_S1600000x1_0 dst)
      (gatherRows h src))
    (broadcastInDim S100000x64 ![0, 1] bcast_S100000x1_S100000x64_0_1
      (broadcastInDim S100000x1 ![0] bcast_S100000_S100000x1_0
        (maximumf
          (Host.scatterAdd scatter_S100000_S1600000x1_S1600000_n_0_0_1
            (broadcastInDim S100000 ![] bcast_S_S100000 (constant (F := Ideal) S_ .f32 0x00000000#32))
            (broadcastInDim S1600000x1 ![0] bcast_S1600000_S1600000x1_0 dst)
            (broadcastInDim S1600000 ![] bcast_S_S1600000 (constant (F := Ideal) S_ .f32 0x3F800000#32)))
          (broadcastInDim S100000 ![] bcast_S_S100000 (constant (F := Ideal) S_ .f32 0x3F800000#32)))))

/-- The transposed weight: stored [out, in], used [in, out]. -/
def wT (W : FVec Ideal S64x64 .f32) : FVec Ideal S64x64 .f32 :=
  transpose S64x64 [1, 0] W transposes_S64x64_S64x64_1_0

/-- The edge result as a function of the arguments. -/
def edgeOut (nf : FVec Ideal S100000x64 .f32) (ef : FVec Ideal S1600000x64 .f32) (src dst : IVec S1600000 32)
    (Wni Wnj Wfij : FVec Ideal S64x64 .f32) (bias : FVec Ideal S64 .f32) : FVec Ideal S1600000x64 .f32 :=
  edge 1600000 64 64 ef (wT Wfij) bias
    (gatherRows (proj 100000 64 64 nf (wT Wni)) src)
    (gatherRows (proj 100000 64 64 nf (wT Wnj)) dst)

/-- The node result as a function of the arguments. -/
def nodeOut (nf : FVec Ideal S100000x64 .f32) (src dst : IVec S1600000 32)
    (Wnode : FVec Ideal S64x64 .f32) (bnode : FVec Ideal S64 .f32) : FVec Ideal S100000x64 .f32 :=
  meanIn (affine 100000 64 64 nf (wT Wnode) bnode) src dst

end Cert.HostGlue

end
-- ==== Proof.KernelRun.lean ====
/-
  The kernel program's run, read as values.

  The program is five segments in a row: a host stretch (four weights transposed), the node region (three row-wise
  layers of the node table), a host stretch (the endpoint tables gathered by source and by destination), the edge region
  (the edge update), and a host stretch (the node layer gathered by source and averaged over each node's in-edges).
  The buffer contents at each boundary are a fold from the launch memory; read at the two result buffers the fold is
  `nodeOut` and `edgeOut` of the ten arguments, and read at an argument it is the argument as launched.
-/
import proofs.«133075_j53755810676780_1_alg».proof.Proof.Gen.KernelIdeal.Frame
import proofs.«133075_j53755810676780_1_alg».proof.Proof.NodeRegion
import proofs.«133075_j53755810676780_1_alg».proof.Proof.EdgeRegion
import proofs.«133075_j53755810676780_1_alg».proof.Proof.HostGlue
import Idealize.ShloMosaic.Lib.StableHlo.Run

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- Every weakly fair execution of the program terminates, nothing faulting, with every buffer that outlives the
    regions at the contents the fold through the five segments gives it. -/
theorem run_all : θ_run defs (onTc (τ := τ) (main (F := Ideal))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c => h c)

/-! ## Walking the fold: each boundary's buffers from the previous boundary's

  `W1` … `W5` are the buffer contents after the first host stretch, the node region, the second host stretch, the
  edge region and the last host stretch. A host stretch leaves a buffer it does not write as it was and a buffer it
  writes at the operations' term; a region leaves its output arrays at the layer of its input arrays (the two region
  modules) and every other buffer as it was. -/

section Walk
open Idealize.ShloMosaic.StableHlo Cert.EdgeNet Cert.HostGlue

/-! ### After the first host stretch: the four transposed weights -/

theorem W1_arg0 (c : Dev nD) : W1 m ρ c (Proc.devRef .tc main_arg0) = m ((c : Thread nD τ).loc main_arg0) := by
  show StableHlo.after hostOps0 (W0 m ρ c) (Proc.devRef .tc main_arg0) = _
  after_results
theorem W1_arg1 (c : Dev nD) : W1 m ρ c (Proc.devRef .tc main_arg1) = m ((c : Thread nD τ).loc main_arg1) := by
  show StableHlo.after hostOps0 (W0 m ρ c) (Proc.devRef .tc main_arg1) = _
  after_results
theorem W1_arg2 (c : Dev nD) : W1 m ρ c (Proc.devRef .tc main_arg2) = m ((c : Thread nD τ).loc main_arg2) := by
  show StableHlo.after hostOps0 (W0 m ρ c) (Proc.devRef .tc main_arg2) = _
  after_results
theorem W1_arg3 (c : Dev nD) : W1 m ρ c (Proc.devRef .tc main_arg3) = m ((c : Thread nD τ).loc main_arg3) := by
  show StableHlo.after hostOps0 (W0 m ρ c) (Proc.devRef .tc main_arg3) = _
  after_results
theorem W1_arg5 (c : Dev nD) : W1 m ρ c (Proc.devRef .tc main_arg5) = m ((c : Thread nD τ).loc main_arg5) := by
  show StableHlo.after hostOps0 (W0 m ρ c) (Proc.devRef .tc main_arg5) = _
  after_results
theorem W1_arg9 (c : Dev nD) : W1 m ρ c (Proc.devRef .tc main_arg9) = m ((c : Thread nD τ).loc main_arg9) := by
  show StableHlo.after hostOps0 (W0 m ρ c) (Proc.devRef .tc main_arg9) = _
  after_results
theorem W1_v0 (c : Dev nD) : W1 m ρ c (Proc.devRef .tc main_v0) = wT (m ((c : Thread nD τ).loc main_arg6)) := by
  show StableHlo.after hostOps0 (W0 m ρ c) (Proc.devRef .tc main_v0) = _
  after_results
  rfl
theorem W1_v1 (c : Dev nD) : W1 m ρ c (Proc.devRef .tc main_v1) = wT (m ((c : Thread nD τ).loc main_arg7)) := by
  show StableHlo.after hostOps0 (W0 m ρ c) (Proc.devRef .tc main_v1) = _
  after_results
  rfl
theorem W1_v2 (c : Dev nD) : W1 m ρ c (Proc.devRef .tc main_v2) = wT (m ((c : Thread nD τ).loc main_arg4)) := by
  show StableHlo.after hostOps0 (W0 m ρ c) (Proc.devRef .tc main_v2) = _
  after_results
  rfl
theorem W1_v3 (c : Dev nD) : W1 m ρ c (Proc.devRef .tc main_v3) = wT (m ((c : Thread nD τ).loc main_arg8)) := by
  show StableHlo.after hostOps0 (W0 m ρ c) (Proc.devRef .tc main_v3) = _
  after_results
  rfl

/-! ### After the node region: the two endpoint tables and the node layer -/

theorem W2_v4_0 (c : Dev nD) : W2 m ρ c (Proc.devRef .tc main_v4_0)
    = proj 100000 64 64 (m ((c : Thread nD τ).loc main_arg0)) (wT (m ((c : Thread nD τ).loc main_arg6))) :=
  (W2_arr m ρ c 5).trans ((NodeRegion.final5 (V1 m ρ) c).trans
    (congrArg₂ (proj 100000 64 64) (W1_arg0 m ρ c) (W1_v0 m ρ c)))
theorem W2_v4_1 (c : Dev nD) : W2 m ρ c (Proc.devRef .tc main_v4_1)
    = proj 100000 64 64 (m ((c : Thread nD τ).loc main_arg0)) (wT (m ((c : Thread nD τ).loc main_arg7))) :=
  (W2_arr m ρ c 6).trans ((NodeRegion.final6 (V1 m ρ) c).trans
    (congrArg₂ (proj 100000 64 64) (W1_arg0 m ρ c) (W1_v1 m ρ c)))
theorem W2_v4_2 (c : Dev nD) : W2 m ρ c (Proc.devRef .tc main_v4_2)
    = affine 100000 64 64 (m ((c : Thread nD τ).loc main_arg0)) (wT (m ((c : Thread nD τ).loc main_arg4))) (m ((c : Thread nD τ).loc main_arg5)) :=
  (W2_arr m ρ c 7).trans ((NodeRegion.final7 (V1 m ρ) c).trans (by
    rw [show V1 m ρ c main_arg0 = _ from W1_arg0 m ρ c, show V1 m ρ c main_v2 = _ from W1_v2 m ρ c,
      show V1 m ρ c main_arg5 = _ from W1_arg5 m ρ c]))
theorem W2_arg1 (c : Dev nD) : W2 m ρ c (Proc.devRef .tc main_arg1) = m ((c : Thread nD τ).loc main_arg1) :=
  (W2_of_ne m ρ c main_arg1 (by decide)).trans (W1_arg1 m ρ c)
theorem W2_arg2 (c : Dev nD) : W2 m ρ c (Proc.devRef .tc main_arg2) = m ((c : Thread nD τ).loc main_arg2) :=
  (W2_of_ne m ρ c main_arg2 (by decide)).trans (W1_arg2 m ρ c)
theorem W2_arg3 (c : Dev nD) : W2 m ρ c (Proc.devRef .tc main_arg3) = m ((c : Thread nD τ).loc main_arg3) :=
  (W2_of_ne m ρ c main_arg3 (by decide)).trans (W1_arg3 m ρ c)
theorem W2_arg9 (c : Dev nD) : W2 m ρ c (Proc.devRef .tc main_arg9) = m ((c : Thread nD τ).loc main_arg9) :=
  (W2_of_ne m ρ c main_arg9 (by decide)).trans (W1_arg9 m ρ c)
theorem W2_v3 (c : Dev nD) : W2 m ρ c (Proc.devRef .tc main_v3) = wT (m ((c : Thread nD τ).loc main_arg8)) :=
  (W2_of_ne m ρ c main_v3 (by decide)).trans (W1_v3 m ρ c)

/-! ### After the second host stretch: the two gathered endpoint terms -/

theorem W3_arg1' (c : Dev nD) : W3 m ρ c (Proc.devRef .tc main_arg1) = W2 m ρ c (Proc.devRef .tc main_arg1) := by
  show StableHlo.after hostOps1 (W2 m ρ c) (Proc.devRef .tc main_arg1) = _
  after_results
theorem W3_arg2' (c : Dev nD) : W3 m ρ c (Proc.devRef .tc main_arg2) = W2 m ρ c (Proc.devRef .tc main_arg2) := by
  show StableHlo.after hostOps1 (W2 m ρ c) (Proc.devRef .tc main_arg2) = _
  after_results
theorem W3_arg3' (c : Dev nD) : W3 m ρ c (Proc.devRef .tc main_arg3) = W2 m ρ c (Proc.devRef .tc main_arg3) := by
  show StableHlo.after hostOps1 (W2 m ρ c) (Proc.devRef .tc main_arg3) = _
  after_results
theorem W3_arg9' (c : Dev nD) : W3 m ρ c (Proc.devRef .tc main_arg9) = W2 m ρ c (Proc.devRef .tc main_arg9) := by
  show StableHlo.after hostOps1 (W2 m ρ c) (Proc.devRef .tc main_arg9) = _
  after_results
theorem W3_v3' (c : Dev nD) : W3 m ρ c (Proc.devRef .tc main_v3) = W2 m ρ c (Proc.devRef .tc main_v3) := by
  show StableHlo.after hostOps1 (W2 m ρ c) (Proc.devRef .tc main_v3) = _
  after_results
theorem W3_v4_2' (c : Dev nD) : W3 m ρ c (Proc.devRef .tc main_v4_2) = W2 m ρ c (Proc.devRef .tc main_v4_2) := by
  show StableHlo.after hostOps1 (W2 m ρ c) (Proc.devRef .tc main_v4_2) = _
  after_results
theorem W3_v11 (c : Dev nD) : W3 m ρ c (Proc.devRef .tc main_v11)
    = gatherRows (proj 100000 64 64 (m ((c : Thread nD τ).loc main_arg0)) (wT (m ((c : Thread nD τ).loc main_arg6)))) (m ((c : Thread nD τ).loc main_arg2)) := by
  have e : W3 m ρ c (Proc.devRef .tc main_v11)
      = gatherRows (W2 m ρ c (Proc.devRef .tc main_v4_0)) (W2 m ρ c (Proc.devRef .tc main_arg2)) := by
    show StableHlo.after hostOps1 (W2 m ρ c) (Proc.devRef .tc main_v11) = _
    after_results
    rfl
  rw [e, W2_v4_0, W2_arg2]
theorem W3_v18 (c : Dev nD) : W3 m ρ c (Proc.devRef .tc main_v18)
    = gatherRows (proj 100000 64 64 (m ((c : Thread nD τ).loc main_arg0)) (wT (m ((c : Thread nD τ).loc main_arg7)))) (m ((c : Thread nD τ).loc main_arg3)) := by
  have e : W3 m ρ c (Proc.devRef .tc main_v18)
      = gatherRows (W2 m ρ c (Proc.devRef .tc main_v4_1)) (W2 m ρ c (Proc.devRef .tc main_arg3)) := by
    show StableHlo.after hostOps1 (W2 m ρ c) (Proc.devRef .tc main_v18) = _
    after_results
    rfl
  rw [e, W2_v4_1, W2_arg3]

/-! ### After the edge region: the edge result -/

theorem W4_v19 (c : Dev nD) : W4 m ρ c (Proc.devRef .tc main_v19)
    = edgeOut (m ((c : Thread nD τ).loc main_arg0)) (m ((c : Thread nD τ).loc main_arg1)) (m ((c : Thread nD τ).loc main_arg2)) (m ((c : Thread nD τ).loc main_arg3))
        (m ((c : Thread nD τ).loc main_arg6)) (m ((c : Thread nD τ).loc main_arg7)) (m ((c : Thread nD τ).loc main_arg8)) (m ((c : Thread nD τ).loc main_arg9)) := by
  refine (W4_arr m ρ c 5).trans ((EdgeRegion.final5 (V3 m ρ) c).trans ?_)
  rw [show V3 m ρ c main_arg1 = _ from (W3_arg1' m ρ c).trans (W2_arg1 m ρ c),
    show V3 m ρ c main_v3 = _ from (W3_v3' m ρ c).trans (W2_v3 m ρ c),
    show V3 m ρ c main_arg9 = _ from (W3_arg9' m ρ c).trans (W2_arg9 m ρ c),
    show V3 m ρ c main_v11 = _ from W3_v11 m ρ c,
    show V3 m ρ c main_v18 = _ from W3_v18 m ρ c]
  rfl
theorem W4_arg2 (c : Dev nD) : W4 m ρ c (Proc.devRef .tc main_arg2) = m ((c : Thread nD τ).loc main_arg2) :=
  (W4_of_ne m ρ c main_arg2 (by decide)).trans ((W3_arg2' m ρ c).trans (W2_arg2 m ρ c))
theorem W4_arg3 (c : Dev nD) : W4 m ρ c (Proc.devRef .tc main_arg3) = m ((c : Thread nD τ).loc main_arg3) :=
  (W4_of_ne m ρ c main_arg3 (by decide)).trans ((W3_arg3' m ρ c).trans (W2_arg3 m ρ c))
theorem W4_v4_2 (c : Dev nD) : W4 m ρ c (Proc.devRef .tc main_v4_2)
    = affine 100000 64 64 (m ((c : Thread nD τ).loc main_arg0)) (wT (m ((c : Thread nD τ).loc main_arg4))) (m ((c : Thread nD τ).loc main_arg5)) :=
  (W4_of_ne m ρ c main_v4_2 (by decide)).trans ((W3_v4_2' m ρ c).trans (W2_v4_2 m ρ c))

/-! ### After the last host stretch: the node result -/

theorem W5_v19 (c : Dev nD) : W5 m ρ c (Proc.devRef .tc main_v19)
    = edgeOut (m ((c : Thread nD τ).loc main_arg0)) (m ((c : Thread nD τ).loc main_arg1)) (m ((c : Thread nD τ).loc main_arg2)) (m ((c : Thread nD τ).loc main_arg3))
        (m ((c : Thread nD τ).loc main_arg6)) (m ((c : Thread nD τ).loc main_arg7)) (m ((c : Thread nD τ).loc main_arg8)) (m ((c : Thread nD τ).loc main_arg9)) := by
  have e : W5 m ρ c (Proc.devRef .tc main_v19) = W4 m ρ c (Proc.devRef .tc main_v19) := by
    show StableHlo.after hostOps2 (W4 m ρ c) (Proc.devRef .tc main_v19) = _
    after_results
  rw [e, W4_v19]
theorem W5_v38 (c : Dev nD) : W5 m ρ c (Proc.devRef .tc main_v38)
    = nodeOut (m ((c : Thread nD τ).loc main_arg0)) (m ((c : Thread nD τ).loc main_arg2)) (m ((c : Thread nD τ).loc main_arg3)) (m ((c : Thread nD τ).loc main_arg4)) (m ((c : Thread nD τ).loc main_arg5)) := by
  have e : W5 m ρ c (Proc.devRef .tc main_v38)
      = meanIn (W4 m ρ c (Proc.devRef .tc main_v4_2)) (W4 m ρ c (Proc.devRef .tc main_arg2))
          (W4 m ρ c (Proc.devRef .tc main_arg3)) := by
    show StableHlo.after hostOps2 (W4 m ρ c) (Proc.devRef .tc main_v38) = _
    after_results
    rfl
  rw [e, W4_v4_2, W4_arg2, W4_arg3]
  rfl

end Walk

/-! ## The program's run, read as values -/

open Cert.HostGlue in
/-- Every weakly fair execution of the program terminates, nothing faulting, with the node result at `nodeOut` and
    the edge result at `edgeOut` of the launch contents of the arguments, and the arguments unchanged. -/
theorem run_value : θ_run defs (onTc (τ := τ) (main (F := Ideal))) ⟨m, fun _ => 0, ρ⟩ (fun r => ∀ c : Dev nD,
      r.2.mem ((c.tc : Thread nD τ).loc main_v38)
        = nodeOut (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v19)
        = edgeOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c =>
    ⟨(h c _ (mem_uc main_v38 (by decide))).trans (W5_v38 m ρ c),
     (h c _ (mem_uc main_v19 (by decide))).trans (W5_v19 m ρ c),
     (h c _ (mem_uc main_arg0 (by decide))).trans (W5_main_arg0 m ρ c),
     (h c _ (mem_uc main_arg1 (by decide))).trans (W5_main_arg1 m ρ c),
     (h c _ (mem_uc main_arg2 (by decide))).trans (W5_main_arg2 m ρ c),
     (h c _ (mem_uc main_arg3 (by decide))).trans (W5_main_arg3 m ρ c),
     (h c _ (mem_uc main_arg4 (by decide))).trans (W5_main_arg4 m ρ c),
     (h c _ (mem_uc main_arg5 (by decide))).trans (W5_main_arg5 m ρ c),
     (h c _ (mem_uc main_arg6 (by decide))).trans (W5_main_arg6 m ρ c),
     (h c _ (mem_uc main_arg7 (by decide))).trans (W5_main_arg7 m ρ c),
     (h c _ (mem_uc main_arg8 (by decide))).trans (W5_main_arg8 m ρ c),
     (h c _ (mem_uc main_arg9 (by decide))).trans (W5_main_arg9 m ρ c)⟩)
    (run_all m ρ)

end Cert.KernelIdeal.Whole

end
-- ==== Proof.RefRun.lean ====
/- The reference program's run, read back as a fold. The program is a straight line of 67 array operations:
   @main's own sixty, and, at the one call it makes, the seven of the two functions the call unfolds to
   (a comparison against zero, a scaling by the slope constant, and the selection between the operand and its
   scaled copy), each over the buffer that call gives the value. Every weakly fair execution terminates with
   each buffer at the fold of the operations' results over the launch contents, and the ten arguments unchanged. -/
import proofs.«133075_j53755810676780_1_alg».proof.ReferenceIdeal
import proofs.«133075_j53755810676780_1_alg».proof.Proof.Gen.ReferenceIdeal
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- The 67 operations in order: statements 1 … 30 of @main, the seven operations of the call (the zero constant and
    its broadcast, the comparison `x ≥ 0`, the slope's copy and its broadcast, the product `slope · x`, the
    selection), then statements 32 … 61. -/
abbrev ops : List (HloOp τ sig (Elt F)) :=
  [
    StableHlo.unary main_arg6 main_v0 ((transpose S64x64 [1, 0] · transposes_S64x64_S64x64_1_0) : (⟨S64x64, .f32⟩ : BufTy).Contents (Elt F) → (⟨S64x64, .f32⟩ : BufTy).Contents (Elt F)),
    StableHlo.binary main_arg0 main_v0 main_v1 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_arg7 main_v2 ((transpose S64x64 [1, 0] · transposes_S64x64_S64x64_1_0) : (⟨S64x64, .f32⟩ : BufTy).Contents (Elt F) → (⟨S64x64, .f32⟩ : BufTy).Contents (Elt F)),
    StableHlo.binary main_arg0 main_v2 main_v3 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_arg8 main_v4 ((transpose S64x64 [1, 0] · transposes_S64x64_S64x64_1_0) : (⟨S64x64, .f32⟩ : BufTy).Contents (Elt F) → (⟨S64x64, .f32⟩ : BufTy).Contents (Elt F)),
    StableHlo.binary main_arg1 main_v4 main_v5 ((fun l r => Host.dotGeneral dot_S1600000x64_S64x64_S1600000x64_1_0_0_1_n_n none l r) : (⟨S1600000x64, .f32⟩ : BufTy).Contents (Elt F) → (⟨S64x64, .f32⟩ : BufTy).Contents (Elt F) → (⟨S1600000x64, .f32⟩ : BufTy).Contents (Elt F)),
    StableHlo.nullary main_c (constantI S_ 32 0#32),
    StableHlo.unary main_c main_v6 (broadcastInDim S1600000 ![] bcast_S_S1600000 : (⟨S_, .i32⟩ : BufTy).Contents (Elt F) → (⟨S1600000, .i32⟩ : BufTy).Contents (Elt F)),
    StableHlo.binary main_arg2 main_v6 main_v7 (cmpi .slt : (⟨S1600000, .i32⟩ : BufTy).Contents (Elt F) → (⟨S1600000, .i32⟩ : BufTy).Contents (Elt F) → (⟨S1600000, .i1⟩ : BufTy).Contents (Elt F)),
    StableHlo.nullary main_c_0 (constantI S_ 32 100000#32),
    StableHlo.unary main_c_0 main_v8 (broadcastInDim S1600000 ![] bcast_S_S1600000 : (⟨S_, .i32⟩ : BufTy).Contents (Elt F) → (⟨S1600000, .i32⟩ : BufTy).Contents (Elt F)),
    StableHlo.binary main_arg2 main_v8 main_v9 (addi : (⟨S1600000, .i32⟩ : BufTy).Contents (Elt F) → (⟨S1600000, .i32⟩ : BufTy).Contents (Elt F) → (⟨S1600000, .i32⟩ : BufTy).Contents (Elt F)),
    StableHlo.ternary main_v7 main_v9 main_arg2 main_v10 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v10 main_v11 (broadcastInDim S1600000x1 ![0] bcast_S1600000_S1600000x1_0 : (⟨S1600000, .i32⟩ : BufTy).Contents (Elt F) → (⟨S1600000x1, .i32⟩ : BufTy).Contents (Elt F)),
    StableHlo.binary main_v1 main_v11 main_v12 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    StableHlo.nullary main_c_1 (constantI S_ 32 0#32),
    StableHlo.unary main_c_1 main_v13 (broadcastInDim S1600000 ![] bcast_S_S1600000 : (⟨S_, .i32⟩ : BufTy).Contents (Elt F) → (⟨S1600000, .i32⟩ : BufTy).Contents (Elt F)),
    StableHlo.binary main_arg3 main_v13 main_v14 (cmpi .slt : (⟨S1600000, .i32⟩ : BufTy).Contents (Elt F) → (⟨S1600000, .i32⟩ : BufTy).Contents (Elt F) → (⟨S1600000, .i1⟩ : BufTy).Contents (Elt F)),
    StableHlo.nullary main_c_2 (constantI S_ 32 100000#32),
    StableHlo.unary main_c_2 main_v15 (broadcastInDim S1600000 ![] bcast_S_S1600000 : (⟨S_, .i32⟩ : BufTy).Contents (Elt F) → (⟨S1600000, .i32⟩ : BufTy).Contents (Elt F)),
    StableHlo.binary main_arg3 main_v15 main_v16 (addi : (⟨S1600000, .i32⟩ : BufTy).Contents (Elt F) → (⟨S1600000, .i32⟩ : BufTy).Contents (Elt F) → (⟨S1600000, .i32⟩ : BufTy).Contents (Elt F)),
    StableHlo.ternary main_v14 main_v16 main_arg3 main_v17 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v17 main_v18 (broadcastInDim S1600000x1 ![0] bcast_S1600000_S1600000x1_0 : (⟨S1600000, .i32⟩ : BufTy).Contents (Elt F) → (⟨S1600000x1, .i32⟩ : BufTy).Contents (Elt F)),
    StableHlo.binary main_v3 main_v18 main_v19 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    StableHlo.binary main_v12 main_v19 main_v20 (addf : (⟨S1600000x64, .f32⟩ : BufTy).Contents (Elt F) → (⟨S1600000x64, .f32⟩ : BufTy).Contents (Elt F) → (⟨S1600000x64, .f32⟩ : BufTy).Contents (Elt F)),
    StableHlo.binary main_v20 main_v5 main_v21 (addf : (⟨S1600000x64, .f32⟩ : BufTy).Contents (Elt F) → (⟨S1600000x64, .f32⟩ : BufTy).Contents (Elt F) → (⟨S1600000x64, .f32⟩ : BufTy).Contents (Elt F)),
    StableHlo.unary main_arg9 main_v22 (broadcastInDim S1x64 ![1] bcast_S64_S1x64_1 : (⟨S64, .f32⟩ : BufTy).Contents (Elt F) → (⟨S1x64, .f32⟩ : BufTy).Contents (Elt F)),
    StableHlo.unary main_v22 main_v23 (broadcastInDim S1600000x64 ![0, 1] bcast_S1x64_S1600000x64_0_1 : (⟨S1x64, .f32⟩ : BufTy).Contents (Elt F) → (⟨S1600000x64, .f32⟩ : BufTy).Contents (Elt F)),
    StableHlo.binary main_v21 main_v23 main_v24 (addf : (⟨S1600000x64, .f32⟩ : BufTy).Contents (Elt F) → (⟨S1600000x64, .f32⟩ : BufTy).Contents (Elt F) → (⟨S1600000x64, .f32⟩ : BufTy).Contents (Elt F)),
    StableHlo.nullary main_cst (constant S_ .f32 0x3C23D70A#32),
    StableHlo.nullary main_call0_cst (constant S_ .f32 0x00000000#32),
    StableHlo.unary main_call0_cst main_call0_v0 (broadcastInDim S1600000x64 ![] bcast_S_S1600000x64 : (⟨S_, .f32⟩ : BufTy).Contents (Elt F) → (⟨S1600000x64, .f32⟩ : BufTy).Contents (Elt F)),
    StableHlo.binary main_v24 main_call0_v0 main_call0_v1 (cmpf .oge : (⟨S1600000x64, .f32⟩ : BufTy).Contents (Elt F) → (⟨S1600000x64, .f32⟩ : BufTy).Contents (Elt F) → (⟨S1600000x64, .i1⟩ : BufTy).Contents (Elt F)),
    StableHlo.unary main_cst main_call0_v2 (id : (⟨S_, .f32⟩ : BufTy).Contents (Elt F) → (⟨S_, .f32⟩ : BufTy).Contents (Elt F)),
    StableHlo.unary main_call0_v2 main_call0_v3 (broadcastInDim S1600000x64 ![] bcast_S_S1600000x64 : (⟨S_, .f32⟩ : BufTy).Contents (Elt F) → (⟨S1600000x64, .f32⟩ : BufTy).Contents (Elt F)),
    StableHlo.binary main_call0_v3 main_v24 main_call0_v4 (mulf : (⟨S1600000x64, .f32⟩ : BufTy).Contents (Elt F) → (⟨S1600000x64, .f32⟩ : BufTy).Contents (Elt F) → (⟨S1600000x64, .f32⟩ : BufTy).Contents (Elt F)),
    StableHlo.ternary main_call0_v1 main_v24 main_call0_v4 main_v25 (select : (⟨S1600000x64, .i1⟩ : BufTy).Contents (Elt F) → (⟨S1600000x64, .f32⟩ : BufTy).Contents (Elt F) → (⟨S1600000x64, .f32⟩ : BufTy).Contents (Elt F) → (⟨S1600000x64, .f32⟩ : BufTy).Contents (Elt F)),
    StableHlo.unary main_arg4 main_v26 ((transpose S64x64 [1, 0] · transposes_S64x64_S64x64_1_0) : (⟨S64x64, .f32⟩ : BufTy).Contents (Elt F) → (⟨S64x64, .f32⟩ : BufTy).Contents (Elt F)),
    StableHlo.binary main_arg0 main_v26 main_v27 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_arg5 main_v28 (broadcastInDim S1x64 ![1] bcast_S64_S1x64_1 : (⟨S64, .f32⟩ : BufTy).Contents (Elt F) → (⟨S1x64, .f32⟩ : BufTy).Contents (Elt F)),
    StableHlo.unary main_v28 main_v29 (broadcastInDim S100000x64 ![0, 1] bcast_S1x64_S100000x64_0_1 : (⟨S1x64, .f32⟩ : BufTy).Contents (Elt F) → (⟨S100000x64, .f32⟩ : BufTy).Contents (Elt F)),
    StableHlo.binary main_v27 main_v29 main_v30 (addf : (⟨S100000x64, .f32⟩ : BufTy).Contents (Elt F) → (⟨S100000x64, .f32⟩ : BufTy).Contents (Elt F) → (⟨S100000x64, .f32⟩ : BufTy).Contents (Elt F)),
    StableHlo.nullary main_c_3 (constantI S_ 32 0#32),
    StableHlo.unary main_c_3 main_v31 (broadcastInDim S1600000 ![] bcast_S_S1600000 : (⟨S_, .i32⟩ : BufTy).Contents (Elt F) → (⟨S1600000, .i32⟩ : BufTy).Contents (Elt F)),
    StableHlo.binary main_arg2 main_v31 main_v32 (cmpi .slt : (⟨S1600000, .i32⟩ : BufTy).Contents (Elt F) → (⟨S1600000, .i32⟩ : BufTy).Contents (Elt F) → (⟨S1600000, .i1⟩ : BufTy).Contents (Elt F)),
    StableHlo.nullary main_c_4 (constantI S_ 32 100000#32),
    StableHlo.unary main_c_4 main_v33 (broadcastInDim S1600000 ![] bcast_S_S1600000 : (⟨S_, .i32⟩ : BufTy).Contents (Elt F) → (⟨S1600000, .i32⟩ : BufTy).Contents (Elt F)),
    StableHlo.binary main_arg2 main_v33 main_v34 (addi : (⟨S1600000, .i32⟩ : BufTy).Contents (Elt F) → (⟨S1600000, .i32⟩ : BufTy).Contents (Elt F) → (⟨S1600000, .i32⟩ : BufTy).Contents (Elt F)),
    StableHlo.ternary main_v32 main_v34 main_arg2 main_v35 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v35 main_v36 (broadcastInDim S1600000x1 ![0] bcast_S1600000_S1600000x1_0 : (⟨S1600000, .i32⟩ : BufTy).Contents (Elt F) → (⟨S1600000x1, .i32⟩ : BufTy).Contents (Elt F)),
    StableHlo.binary main_v30 main_v36 main_v37 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    StableHlo.nullary main_cst_5 (constant S_ .f32 0x00000000#32),
    StableHlo.unary main_cst_5 main_v38 (broadcastInDim S100000x64 ![] bcast_S_S100000x64 : (⟨S_, .f32⟩ : BufTy).Contents (Elt F) → (⟨S100000x64, .f32⟩ : BufTy).Contents (Elt F)),
    StableHlo.unary main_arg3 main_v39 (broadcastInDim S1600000x1 ![0] bcast_S1600000_S1600000x1_0 : (⟨S1600000, .i32⟩ : BufTy).Contents (Elt F) → (⟨S1600000x1, .i32⟩ : BufTy).Contents (Elt F)),
    StableHlo.ternary main_v38 main_v39 main_v37 main_v40 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    StableHlo.nullary main_cst_6 (constant S_ .f32 0x3F800000#32),
    StableHlo.unary main_cst_6 main_v41 (broadcastInDim S1600000 ![] bcast_S_S1600000 : (⟨S_, .f32⟩ : BufTy).Contents (Elt F) → (⟨S1600000, .f32⟩ : BufTy).Contents (Elt F)),
    StableHlo.nullary main_cst_7 (constant S_ .f32 0x00000000#32),
    StableHlo.unary main_cst_7 main_v42 (broadcastInDim S100000 ![] bcast_S_S100000 : (⟨S_, .f32⟩ : BufTy).Contents (Elt F) → (⟨S100000, .f32⟩ : BufTy).Contents (Elt F)),
    StableHlo.unary main_arg3 main_v43 (broadcastInDim S1600000x1 ![0] bcast_S1600000_S1600000x1_0 : (⟨S1600000, .i32⟩ : BufTy).Contents (Elt F) → (⟨S1600000x1, .i32⟩ : BufTy).Contents (Elt F)),
    StableHlo.ternary main_v42 main_v43 main_v41 main_v44 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    StableHlo.nullary main_cst_8 (constant S_ .f32 0x3F800000#32),
    StableHlo.unary main_cst_8 main_v45 (broadcastInDim S100000 ![] bcast_S_S100000 : (⟨S_, .f32⟩ : BufTy).Contents (Elt F) → (⟨S100000, .f32⟩ : BufTy).Contents (Elt F)),
    StableHlo.binary main_v44 main_v45 main_v46 (maximumf : (⟨S100000, .f32⟩ : BufTy).Contents (Elt F) → (⟨S100000, .f32⟩ : BufTy).Contents (Elt F) → (⟨S100000, .f32⟩ : BufTy).Contents (Elt F)),
    StableHlo.unary main_v46 main_v47 (broadcastInDim S100000x1 ![0] bcast_S100000_S100000x1_0 : (⟨S100000, .f32⟩ : BufTy).Contents (Elt F) → (⟨S100000x1, .f32⟩ : BufTy).Contents (Elt F)),
    StableHlo.unary main_v47 main_v48 (broadcastInDim S100000x64 ![0, 1] bcast_S100000x1_S100000x64_0_1 : (⟨S100000x1, .f32⟩ : BufTy).Contents (Elt F) → (⟨S100000x64, .f32⟩ : BufTy).Contents (Elt F)),
    StableHlo.binary main_v40 main_v48 main_v49 (Host.divf : (⟨S100000x64, .f32⟩ : BufTy).Contents (Elt F) → (⟨S100000x64, .f32⟩ : BufTy).Contents (Elt F) → (⟨S100000x64, .f32⟩ : BufTy).Contents (Elt F)) ]

set_option maxRecDepth 8192 in
set_option maxHeartbeats 4000000 in
/-- @main is that straight line: the two windows in order, the call unfolded at its site. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

/-- Every operation touches TensorCore references only. -/
theorem ops_sub : (ops : List (HloOp τ sig (Elt F))).Forall fun op => op.bufs ⊆ tcRefs τ sig :=
  ⟨
    unary_bufs_sub .., binary_bufs_sub .., unary_bufs_sub .., binary_bufs_sub .., unary_bufs_sub .., binary_bufs_sub ..,
    nullary_bufs_sub .., unary_bufs_sub .., binary_bufs_sub .., nullary_bufs_sub .., unary_bufs_sub .., binary_bufs_sub ..,
    ternary_bufs_sub .., unary_bufs_sub .., binary_bufs_sub .., nullary_bufs_sub .., unary_bufs_sub .., binary_bufs_sub ..,
    nullary_bufs_sub .., unary_bufs_sub .., binary_bufs_sub .., ternary_bufs_sub .., unary_bufs_sub .., binary_bufs_sub ..,
    binary_bufs_sub .., binary_bufs_sub .., unary_bufs_sub .., unary_bufs_sub .., binary_bufs_sub .., nullary_bufs_sub ..,
    nullary_bufs_sub .., unary_bufs_sub .., binary_bufs_sub .., unary_bufs_sub .., unary_bufs_sub .., binary_bufs_sub ..,
    ternary_bufs_sub .., unary_bufs_sub .., binary_bufs_sub .., unary_bufs_sub .., unary_bufs_sub .., binary_bufs_sub ..,
    nullary_bufs_sub .., unary_bufs_sub .., binary_bufs_sub .., nullary_bufs_sub .., unary_bufs_sub .., binary_bufs_sub ..,
    ternary_bufs_sub .., unary_bufs_sub .., binary_bufs_sub .., nullary_bufs_sub .., unary_bufs_sub .., unary_bufs_sub ..,
    ternary_bufs_sub .., nullary_bufs_sub .., unary_bufs_sub .., nullary_bufs_sub .., unary_bufs_sub .., unary_bufs_sub ..,
    ternary_bufs_sub .., nullary_bufs_sub .., unary_bufs_sub .., binary_bufs_sub .., unary_bufs_sub .., unary_bufs_sub ..,
    binary_bufs_sub ..⟩

/-- On the one device, for any float values, from any memory with zero counters: every weakly fair execution of
    @main terminates, and every final state has each buffer at the fold of the 67 operations' results over the
    launch contents. -/
theorem run (m : (ℓ : Loc nD τ sig) → Buf (Elt F) ℓ) (ρ : Dev nD → PrngReg) :
    θ_run (defs (F := F)) (onTc (τ := τ) (main (F := F))) ⟨m, fun _ => 0, ρ⟩ fun r =>
      ∀ (c : Dev nD) (b : Ref sig .tc),
        r.2.mem ((c.tc : Thread nD τ).loc b) = after (ops (F := F)) (launchContents m c) (Proc.devRef .tc b) :=
  run_seq scopedRefs_eq scopedSems_eq defs main (fun _ => ops) main_eq (fun _ => ops_sub) m ρ

/-! ## The arguments

No operation of the line writes an argument's buffer, so the fold leaves each at what it held. -/

theorem after_arg0 (V : Valuation τ sig (Elt F)) :
    after (ops (F := F)) V (Proc.devRef .tc main_arg0) = V (Proc.devRef .tc main_arg0) := by after_results_simp
theorem after_arg1 (V : Valuation τ sig (Elt F)) :
    after (ops (F := F)) V (Proc.devRef .tc main_arg1) = V (Proc.devRef .tc main_arg1) := by after_results_simp
theorem after_arg2 (V : Valuation τ sig (Elt F)) :
    after (ops (F := F)) V (Proc.devRef .tc main_arg2) = V (Proc.devRef .tc main_arg2) := by after_results_simp
theorem after_arg3 (V : Valuation τ sig (Elt F)) :
    after (ops (F := F)) V (Proc.devRef .tc main_arg3) = V (Proc.devRef .tc main_arg3) := by after_results_simp
theorem after_arg4 (V : Valuation τ sig (Elt F)) :
    after (ops (F := F)) V (Proc.devRef .tc main_arg4) = V (Proc.devRef .tc main_arg4) := by after_results_simp
theorem after_arg5 (V : Valuation τ sig (Elt F)) :
    after (ops (F := F)) V (Proc.devRef .tc main_arg5) = V (Proc.devRef .tc main_arg5) := by after_results_simp
theorem after_arg6 (V : Valuation τ sig (Elt F)) :
    after (ops (F := F)) V (Proc.devRef .tc main_arg6) = V (Proc.devRef .tc main_arg6) := by after_results_simp
theorem after_arg7 (V : Valuation τ sig (Elt F)) :
    after (ops (F := F)) V (Proc.devRef .tc main_arg7) = V (Proc.devRef .tc main_arg7) := by after_results_simp
theorem after_arg8 (V : Valuation τ sig (Elt F)) :
    after (ops (F := F)) V (Proc.devRef .tc main_arg8) = V (Proc.devRef .tc main_arg8) := by after_results_simp
theorem after_arg9 (V : Valuation τ sig (Elt F)) :
    after (ops (F := F)) V (Proc.devRef .tc main_arg9) = V (Proc.devRef .tc main_arg9) := by after_results_simp

/-- The run at the two results and the ten arguments: each result at the fold of the operations over the launch
    contents (left unevaluated), each argument at its launch contents. -/
theorem run_named (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v49) = after (ops (F := F)) (launchContents m c) (Proc.devRef .tc main_v49)
      ∧ r.2.mem ((c.tc : Thread nD τ).loc main_v25) = after (ops (F := F)) (launchContents m c) (Proc.devRef .tc main_v25)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => ⟨h c main_v49,
      h c main_v25,
      (h c main_arg0).trans (after_arg0 _),
      (h c main_arg1).trans (after_arg1 _),
      (h c main_arg2).trans (after_arg2 _),
      (h c main_arg3).trans (after_arg3 _),
      (h c main_arg4).trans (after_arg4 _),
      (h c main_arg5).trans (after_arg5 _),
      (h c main_arg6).trans (after_arg6 _),
      (h c main_arg7).trans (after_arg7 _),
      (h c main_arg8).trans (after_arg8 _),
      (h c main_arg9).trans (after_arg9 _)⟩)
    (run m ρ)

end Cert.ReferenceIdeal.HandRun

end
-- ==== Proof.RefValue.lean ====
/- The two results of the reference program as closed functions of its arguments, at the ideal values.

   The fold of the 67 operations at a result buffer is a composed term of the arguments' entries. That term is read
   here as the step's two layers: the edge result is the leaky rectifier of the sum of the edge features' product
   with the transposed edge weight, the two endpoint terms (rows of the node table's products gathered by source and
   by destination) and the bias; the node result is the mean over each node's in-edges of the rows of the node
   table's affine layer. Only the float layers are rewritten (a product, an affine layer, a sum of four terms in
   another order, a rectifier); the gather, the two scatter-adds and the quotient stay as they are printed, and the
   contraction records of the program are the plain ones field by field. -/
import proofs.«133075_j53755810676780_1_alg».proof.Proof.RefRun
import proofs.«133075_j53755810676780_1_alg».proof.Proof.HostGlue

noncomputable section

namespace Cert.ReferenceIdeal.HandValue

open Cert.ReferenceIdeal Cert.ReferenceIdeal.Gen Cert.ReferenceIdeal.HandRun Idealize.ShloMosaic Idealize.ShloMosaic.TcCoe
  Idealize.SL.Sem Idealize.ShloMosaic.StableHlo Cert.HostGlue Cert.EdgeNet

/-! ## The contraction records -/

/-- The program's record for a [100000, 64] by [64, 64] product is the plain one: the same six lists. -/
theorem dot_node : dot_S100000x64_S64x64_S100000x64_1_0_0_1_n_n = DotDims.plain 100000 64 64 := rfl
/-- The program's record for a [1600000, 64] by [64, 64] product is the plain one. -/
theorem dot_edge : dot_S1600000x64_S64x64_S1600000x64_1_0_0_1_n_n = DotDims.plain 1600000 64 64 := rfl

/-! ## The pieces, over arbitrary arrays -/

/-- An endpoint term: the rows, named by the wrapped indices, of the node table times a transposed weight. -/
theorem gather_proj (nf : FVec Ideal S100000x64 .f32) (W : FVec Ideal S64x64 .f32) (x : IVec S1600000 32) :
    Host.gather gather_S100000x64_S1600000x1_S1600000x64_1_0_n_n_0_1_164
        (Host.dotGeneral dot_S100000x64_S64x64_S100000x64_1_0_0_1_n_n none nf (transpose S64x64 [1, 0] W transposes_S64x64_S64x64_1_0))
        (broadcastInDim S1600000x1 ![0] bcast_S1600000_S1600000x1_0
          (select (cmpi .slt x (broadcastInDim S1600000 ![] bcast_S_S1600000 (constantI S_ 32 0#32)))
            (addi x (broadcastInDim S1600000 ![] bcast_S_S1600000 (constantI S_ 32 100000#32))) x))
      = gatherRows (proj 100000 64 64 nf (wT W)) x :=
  congrArg (fun T => gatherRows T x) (host_proj 100000 64 64 nf (wT W))

/-- The sum the rectifier is applied to: the two endpoint terms, the edge features' product, the bias. -/
theorem sum_host (ef : FVec Ideal S1600000x64 .f32) (W : FVec Ideal S64x64 .f32) (bias : FVec Ideal S64 .f32)
    (A B : FVec Ideal S1600000x64 .f32) :
    addf (addf (addf A B) (Host.dotGeneral dot_S1600000x64_S64x64_S1600000x64_1_0_0_1_n_n none ef (transpose S64x64 [1, 0] W transposes_S64x64_S64x64_1_0)))
        (broadcastInDim S1600000x64 ![0, 1] bcast_S1x64_S1600000x64_0_1 (broadcastInDim S1x64 ![1] bcast_S64_S1x64_1 bias))
      = edgeSum 1600000 64 64 ef (wT W) bias A B :=
  host_edgeSum 1600000 64 64 ef (wT W) bias A B bcast_S64_S1x64_1 bcast_S1x64_S1600000x64_0_1

/-- The rectifier as the program spells it (the slope constant passed through a copy) is the rectifier. -/
theorem leaky_host (X : FVec Ideal S1600000x64 .f32) :
    select (cmpf .oge X (broadcastInDim S1600000x64 ![] bcast_S_S1600000x64 (constant (F := Ideal) S_ .f32 0x00000000#32))) X
        (mulf (broadcastInDim S1600000x64 ![] bcast_S_S1600000x64 (id (constant (F := Ideal) S_ .f32 0x3C23D70A#32))) X)
      = leaky S1600000x64 X :=
  host_leaky S1600000x64 X bcast_S_S1600000x64

/-- The edge result's composed term is the edge update of the arguments. -/
theorem edge_value (nf : FVec Ideal S100000x64 .f32) (ef : FVec Ideal S1600000x64 .f32) (src dst : IVec S1600000 32)
    (Wni Wnj Wfij : FVec Ideal S64x64 .f32) (bias : FVec Ideal S64 .f32) :
    select (cmpf .oge (addf (addf (addf (Host.gather gather_S100000x64_S1600000x1_S1600000x64_1_0_n_n_0_1_164
        (Host.dotGeneral dot_S100000x64_S64x64_S100000x64_1_0_0_1_n_n none nf (transpose S64x64 [1, 0] Wni transposes_S64x64_S64x64_1_0))
        (broadcastInDim S1600000x1 ![0] bcast_S1600000_S1600000x1_0
          (select (cmpi .slt src (broadcastInDim S1600000 ![] bcast_S_S1600000 (constantI S_ 32 0#32)))
            (addi src (broadcastInDim S1600000 ![] bcast_S_S1600000 (constantI S_ 32 100000#32))) src)))
      (Host.gather gather_S100000x64_S1600000x1_S1600000x64_1_0_n_n_0_1_164
        (Host.dotGeneral dot_S100000x64_S64x64_S100000x64_1_0_0_1_n_n none nf (transpose S64x64 [1, 0] Wnj transposes_S64x64_S64x64_1_0))
        (broadcastInDim S1600000x1 ![0] bcast_S1600000_S1600000x1_0
          (select (cmpi .slt dst (broadcastInDim S1600000 ![] bcast_S_S1600000 (constantI S_ 32 0#32)))
            (addi dst (broadcastInDim S1600000 ![] bcast_S_S1600000 (constantI S_ 32 100000#32))) dst))))
      (Host.dotGeneral dot_S1600000x64_S64x64_S1600000x64_1_0_0_1_n_n none ef (transpose S64x64 [1, 0] Wfij transposes_S64x64_S64x64_1_0)))
      (broadcastInDim S1600000x64 ![0, 1] bcast_S1x64_S1600000x64_0_1 (broadcastInDim S1x64 ![1] bcast_S64_S1x64_1 bias)))
        (broadcastInDim S1600000x64 ![] bcast_S_S1600000x64 (constant (F := Ideal) S_ .f32 0x00000000#32)))
      (addf (addf (addf (Host.gather gather_S100000x64_S1600000x1_S1600000x64_1_0_n_n_0_1_164
        (Host.dotGeneral dot_S100000x64_S64x64_S100000x64_1_0_0_1_n_n none nf (transpose S64x64 [1, 0] Wni transposes_S64x64_S64x64_1_0))
        (broadcastInDim S1600000x1 ![0] bcast_S1600000_S1600000x1_0
          (select (cmpi .slt src (broadcastInDim S1600000 ![] bcast_S_S1600000 (constantI S_ 32 0#32)))
            (addi src (broadcastInDim S1600000 ![] bcast_S_S1600000 (constantI S_ 32 100000#32))) src)))
      (Host.gather gather_S100000x64_S1600000x1_S1600000x64_1_0_n_n_0_1_164
        (Host.dotGeneral dot_S100000x64_S64x64_S100000x64_1_0_0_1_n_n none nf (transpose S64x64 [1, 0] Wnj transposes_S64x64_S64x64_1_0))
        (broadcastInDim S1600000x1 ![0] bcast_S1600000_S1600000x1_0
          (select (cmpi .slt dst (broadcastInDim S1600000 ![] bcast_S_S1600000 (constantI S_ 32 0#32)))
            (addi dst (broadcastInDim S1600000 ![] bcast_S_S1600000 (constantI S_ 32 100000#32))) dst))))
      (Host.dotGeneral dot_S1600000x64_S64x64_S1600000x64_1_0_0_1_n_n none ef (transpose S64x64 [1, 0] Wfij transposes_S64x64_S64x64_1_0)))
      (broadcastInDim S1600000x64 ![0, 1] bcast_S1x64_S1600000x64_0_1 (broadcastInDim S1x64 ![1] bcast_S64_S1x64_1 bias)))
      (mulf (broadcastInDim S1600000x64 ![] bcast_S_S1600000x64 (id (constant (F := Ideal) S_ .f32 0x3C23D70A#32)))
        (addf (addf (addf (Host.gather gather_S100000x64_S1600000x1_S1600000x64_1_0_n_n_0_1_164
        (Host.dotGeneral dot_S100000x64_S64x64_S100000x64_1_0_0_1_n_n none nf (transpose S64x64 [1, 0] Wni transposes_S64x64_S64x64_1_0))
        (broadcastInDim S1600000x1 ![0] bcast_S1600000_S1600000x1_0
          (select (cmpi .slt src (broadcastInDim S1600000 ![] bcast_S_S1600000 (constantI S_ 32 0#32)))
            (addi src (broadcastInDim S1600000 ![] bcast_S_S1600000 (constantI S_ 32 100000#32))) src)))
      (Host.gather gather_S100000x64_S1600000x1_S1600000x64_1_0_n_n_0_1_164
        (Host.dotGeneral dot_S100000x64_S64x64_S100000x64_1_0_0_1_n_n none nf (transpose S64x64 [1, 0] Wnj transposes_S64x64_S64x64_1_0))
        (broadcastInDim S1600000x1 ![0] bcast_S1600000_S1600000x1_0
          (select (cmpi .slt dst (broadcastInDim S1600000 ![] bcast_S_S1600000 (constantI S_ 32 0#32)))
            (addi dst (broadcastInDim S1600000 ![] bcast_S_S1600000 (constantI S_ 32 100000#32))) dst))))
      (Host.dotGeneral dot_S1600000x64_S64x64_S1600000x64_1_0_0_1_n_n none ef (transpose S64x64 [1, 0] Wfij transposes_S64x64_S64x64_1_0)))
      (broadcastInDim S1600000x64 ![0, 1] bcast_S1x64_S1600000x64_0_1 (broadcastInDim S1x64 ![1] bcast_S64_S1x64_1 bias))))
      = edgeOut nf ef src dst Wni Wnj Wfij bias := by
  rw [gather_proj nf Wni src, gather_proj nf Wnj dst, sum_host, leaky_host]
  rfl

/-- The node result's composed term is the mean over in-edges of the affine layer of the arguments. -/
theorem node_value (nf : FVec Ideal S100000x64 .f32) (src dst : IVec S1600000 32)
    (W : FVec Ideal S64x64 .f32) (b : FVec Ideal S64 .f32) :
    Host.divf
        (Host.scatterAdd scatter_S100000x64_S1600000x1_S1600000x64_1_0_0_1
          (broadcastInDim S100000x64 ![] bcast_S_S100000x64 (constant (F := Ideal) S_ .f32 0x00000000#32))
          (broadcastInDim S1600000x1 ![0] bcast_S1600000_S1600000x1_0 dst)
          (Host.gather gather_S100000x64_S1600000x1_S1600000x64_1_0_n_n_0_1_164
            (addf (Host.dotGeneral dot_S100000x64_S64x64_S100000x64_1_0_0_1_n_n none nf (transpose S64x64 [1, 0] W transposes_S64x64_S64x64_1_0))
              (broadcastInDim S100000x64 ![0, 1] bcast_S1x64_S100000x64_0_1 (broadcastInDim S1x64 ![1] bcast_S64_S1x64_1 b)))
            (broadcastInDim S1600000x1 ![0] bcast_S1600000_S1600000x1_0
          (select (cmpi .slt src (broadcastInDim S1600000 ![] bcast_S_S1600000 (constantI S_ 32 0#32)))
            (addi src (broadcastInDim S1600000 ![] bcast_S_S1600000 (constantI S_ 32 100000#32))) src))))
        (broadcastInDim S100000x64 ![0, 1] bcast_S100000x1_S100000x64_0_1
          (broadcastInDim S100000x1 ![0] bcast_S100000_S100000x1_0
            (maximumf
              (Host.scatterAdd scatter_S100000_S1600000x1_S1600000_n_0_0_1
                (broadcastInDim S100000 ![] bcast_S_S100000 (constant (F := Ideal) S_ .f32 0x00000000#32))
                (broadcastInDim S1600000x1 ![0] bcast_S1600000_S1600000x1_0 dst)
                (broadcastInDim S1600000 ![] bcast_S_S1600000 (constant (F := Ideal) S_ .f32 0x3F800000#32)))
              (broadcastInDim S100000 ![] bcast_S_S100000 (constant (F := Ideal) S_ .f32 0x3F800000#32)))))
      = nodeOut nf src dst W b :=
  congrArg (fun h => meanIn h src dst)
    (host_affine 100000 64 64 nf (wT W) b bcast_S64_S1x64_1 bcast_S1x64_S100000x64_0_1)

/-! ## The folds at the two results -/

set_option maxHeartbeats 2000000 in
/-- The fold at the edge result: the edge update of the arguments' entries. -/
theorem after_v25 (V : Valuation τ sig (Elt Ideal)) :
    after (ops (F := Ideal)) V (Proc.devRef .tc main_v25)
      = Cert.HostGlue.edgeOut (V (Proc.devRef .tc main_arg0)) (V (Proc.devRef .tc main_arg1)) (V (Proc.devRef .tc main_arg2)) (V (Proc.devRef .tc main_arg3)) (V (Proc.devRef .tc main_arg6)) (V (Proc.devRef .tc main_arg7)) (V (Proc.devRef .tc main_arg8)) (V (Proc.devRef .tc main_arg9)) := by
  after_results_simp
  exact edge_value _ _ _ _ _ _ _ _

set_option maxHeartbeats 2000000 in
/-- The fold at the node result: the mean over in-edges of the affine layer of the arguments' entries. -/
theorem after_v49 (V : Valuation τ sig (Elt Ideal)) :
    after (ops (F := Ideal)) V (Proc.devRef .tc main_v49)
      = Cert.HostGlue.nodeOut (V (Proc.devRef .tc main_arg0)) (V (Proc.devRef .tc main_arg2)) (V (Proc.devRef .tc main_arg3)) (V (Proc.devRef .tc main_arg4)) (V (Proc.devRef .tc main_arg5)) := by
  after_results_simp
  exact node_value _ _ _ _ _

/-! ## The run, at the closed functions -/

/-- On the one device, at the ideal values, from any memory with zero counters: every weakly fair execution of @main
    terminates with the node result the mean over in-edges of the affine layer of the launch arguments, the edge
    result their edge update, and the ten arguments unchanged. -/
theorem run_value (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v49) = Cert.HostGlue.nodeOut (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v25) = Cert.HostGlue.edgeOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => ⟨(h c).1.trans (after_v49 _), (h c).2.1.trans (after_v25 _), (h c).2.2⟩)
    (run_named m ρ)

end Cert.ReferenceIdeal.HandValue

end
-- ==== Proof.lean ====
/-
  One message-passing step on a graph, computed two ways, gives the same two results at the ideal values.

  Both programs take a node table [100000, 64], edge features [1600000, 64], a source and a destination index per
  edge, four 64 x 64 weights stored [out, in] and two biases. The edge result is the leaky rectifier of
  (edge features · W_fijᵀ) plus the source node's row of (nodes · W_niᵀ) plus the destination node's row of
  (nodes · W_njᵀ) plus a bias; the node result is, for each node, the mean over its in-edges of the source node's row of
  (nodes · W_nodeᵀ + b_node), zero for a node without in-edges.

  The kernel program computes the three node-side products in one tiled region and the edge update in another, with
  the gathers and the scatter-mean on the host between and after them; the reference computes everything on the host.
  Read as values, each program ends with the node result at `nodeOut` and the edge result at `edgeOut` of its ten
  arguments (HostGlue): the tiled products are the whole products because every layer is row-wise and the blocks cover
  the rows, and the kernel's order of the three additions in the edge sum is the reference's because addition of extended
  reals is commutative and associative. No step uses that the inputs are finite. The gathers, scatter-adds and the
  quotient are the same host operations in both programs and are never opened.

  The three frame claims: the two kernel programs' are the generated frames; the reference's is its run with the
  results dropped. The idealization rewrote no operation, so there is nothing to preserve.
-/
import proofs.«133075_j53755810676780_1_alg».proof.Defs
import proofs.«133075_j53755810676780_1_alg».proof.Proof.Gen.Kernel
import proofs.«133075_j53755810676780_1_alg».proof.Proof.Gen.Kernel.Frame
import proofs.«133075_j53755810676780_1_alg».proof.Proof.Gen.KernelIdeal
import proofs.«133075_j53755810676780_1_alg».proof.Proof.Gen.KernelIdeal.Frame
import proofs.«133075_j53755810676780_1_alg».proof.Proof.Gen.ReferenceIdeal
import proofs.«133075_j53755810676780_1_alg».proof.Proof.Gen.Pre_finite_inputs
import proofs.«133075_j53755810676780_1_alg».proof.Proof.KernelRun
import proofs.«133075_j53755810676780_1_alg».proof.Proof.RefValue

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run with the two results dropped. -/
theorem frame_referenceIdeal : Cert.frame_ReferenceIdeal := fun m ρ _ =>
  (θ_run Cert.ReferenceIdeal.defs _ _).mono (fun _ h c => (h c).2.2)
    (Cert.ReferenceIdeal.HandValue.run_value m ρ)

/-- The idealization rewrote no operation. -/
theorem preserves : Cert.preserves_Kernel_KernelIdeal := trivial

/-- Both programs end with the node result at `nodeOut` and the edge result at `edgeOut` of the arguments, which
    agree. -/
theorem algebraic : Cert.algebraic_KernelIdeal_ReferenceIdeal := by
  intro m ρ m' ρ' _ hagree
  refine ⟨_, _, Cert.KernelIdeal.Whole.run_value m ρ, ?_⟩
  refine (θ_run Cert.ReferenceIdeal.defs _ _).mono (fun _ h c => ?_)
    (Cert.ReferenceIdeal.HandValue.run_value m' ρ')
  obtain ⟨a0, a1, a2, a3, a4, a5, a6, a7, a8, a9⟩ := hagree c
  refine ⟨(h c).1.trans ?_, (h c).2.1.trans ?_, (h c).2.2⟩
  · rw [a0, a2, a3, a4, a5]
  · rw [a0, a1, a2, a3, a6, a7, a8, a9]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
